-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x31x1024x1024 : Shape := ⟨4, ![1, 31, 1024, 1024]⟩
abbrev S1x1x1024x1024 : Shape := ⟨4, ![1, 1, 1024, 1024]⟩
abbrev S_ : Shape := ⟨0, ![]⟩

class Facts : Prop where
  bcast_S_S1x31x1024x1024 : S_.BroadcastsInDim S1x31x1024x1024 (![] : Fin 0 → Fin S1x31x1024x1024.rank)
  reducesTo_S1x31x1024x1024_S_d0_1_2_3 : S1x31x1024x1024.ReducesTo [0, 1, 2, 3] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_

variable [Facts]

def fn {F : FTy → Type} [FloatOps F] (main_arg0 : FVec F S1x31x1024x1024 .f32) (main_arg1 : FVec F S1x1x1024x1024 .f32) : IVec S_ 1 :=
  let main_v0 : FVec F S1x31x1024x1024 .f32 := Host.absf main_arg0
  let main_cst : FVec F S_ .f32 := constant S_ .f32 0x7F800000#32
  let main_v1 : FVec F S1x31x1024x1024 .f32 := broadcastInDim S1x31x1024x1024 ![] bcast_S_S1x31x1024x1024 main_cst
  let main_v2 : IVec S1x31x1024x1024 1 := cmpf .olt main_v0 main_v1
  let main_c : IVec S_ 1 := constantI S_ 1 1#1
  let main_v3 : IVec S_ 1 := (fun x v => Host.reduce IntOp.andi x v reducesTo_S1x31x1024x1024_S_d0_1_2_3 h_S_) main_v2 main_c
  let main_v4 : FVec F S1x1x1024x1024 .f32 := Host.absf main_arg1
  let main_cst_0 : FVec F S_ .f32 := constant S_ .f32 0x7F800000#32
  let main_v5 : FVec F S1x1x1024x1024 .f32 := broadcastInDim S1x1x1024x1024 ![] bcast_S_S1x1x1024x1024 main_cst_0
  let main_v6 : IVec S1x1x1024x1024 1 := cmpf .olt main_v4 main_v5
  let main_c_1 : IVec S_ 1 := constantI S_ 1 1#1
  let main_v7 : IVec S_ 1 := (fun x v => Host.reduce IntOp.andi x v reducesTo_S1x1x1024x1024_S_d0_1_2_3 h_S_) main_v6 main_c_1
  let main_v8 : IVec S_ 1 := andi main_v3 main_v7
  main_v8
-- ==== Kernel.lean ====
abbrev S1x31x1024x1024 : Shape := ⟨4, ![1, 31, 1024, 1024]⟩
abbrev S1x1x1024x1024 : Shape := ⟨4, ![1, 1, 1024, 1024]⟩
abbrev S1x1x1024x1054 : Shape := ⟨4, ![1, 1, 1024, 1054]⟩
abbrev S1x31x128x1024 : Shape := ⟨4, ![1, 31, 128, 1024]⟩
abbrev S1x1x128x1024 : Shape := ⟨4, ![1, 1, 128, 1024]⟩
abbrev S1x1x128x1054 : Shape := ⟨4, ![1, 1, 128, 1054]⟩
abbrev S128x1024 : Shape := ⟨2, ![128, 1024]⟩
abbrev S128x1054 : Shape := ⟨2, ![128, 1054]⟩
abbrev S128x30 : Shape := ⟨2, ![128, 30]⟩
abbrev S128x1 : Shape := ⟨2, ![128, 1]⟩
abbrev S128x1025 : Shape := ⟨2, ![128, 1025]⟩
abbrev S128x29 : Shape := ⟨2, ![128, 29]⟩
abbrev S128x2 : Shape := ⟨2, ![128, 2]⟩
abbrev S128x1026 : Shape := ⟨2, ![128, 1026]⟩
abbrev S128x28 : Shape := ⟨2, ![128, 28]⟩
abbrev S128x3 : Shape := ⟨2, ![128, 3]⟩
abbrev S128x1027 : Shape := ⟨2, ![128, 1027]⟩
abbrev S128x27 : Shape := ⟨2, ![128, 27]⟩
abbrev S128x4 : Shape := ⟨2, ![128, 4]⟩
abbrev S128x1028 : Shape := ⟨2, ![128, 1028]⟩
abbrev S128x26 : Shape := ⟨2, ![128, 26]⟩
abbrev S128x5 : Shape := ⟨2, ![128, 5]⟩
abbrev S128x1029 : Shape := ⟨2, ![128, 1029]⟩
abbrev S128x25 : Shape := ⟨2, ![128, 25]⟩
abbrev S128x6 : Shape := ⟨2, ![128, 6]⟩
abbrev S128x1030 : Shape := ⟨2, ![128, 1030]⟩
abbrev S128x24 : Shape := ⟨2, ![128, 24]⟩
abbrev S128x7 : Shape := ⟨2, ![128, 7]⟩
abbrev S128x1031 : Shape := ⟨2, ![128, 1031]⟩
abbrev S128x23 : Shape := ⟨2, ![128, 23]⟩
abbrev S128x8 : Shape := ⟨2, ![128, 8]⟩
abbrev S128x1032 : Shape := ⟨2, ![128, 1032]⟩
abbrev S128x22 : Shape := ⟨2, ![128, 22]⟩
abbrev S128x9 : Shape := ⟨2, ![128, 9]⟩
abbrev S128x1033 : Shape := ⟨2, ![128, 1033]⟩
abbrev S128x21 : Shape := ⟨2, ![128, 21]⟩
abbrev S128x10 : Shape := ⟨2, ![128, 10]⟩
abbrev S128x1034 : Shape := ⟨2, ![128, 1034]⟩
abbrev S128x20 : Shape := ⟨2, ![128, 20]⟩
abbrev S128x11 : Shape := ⟨2, ![128, 11]⟩
abbrev S128x1035 : Shape := ⟨2, ![128, 1035]⟩
abbrev S128x19 : Shape := ⟨2, ![128, 19]⟩
abbrev S128x12 : Shape := ⟨2, ![128, 12]⟩
abbrev S128x1036 : Shape := ⟨2, ![128, 1036]⟩
abbrev S128x18 : Shape := ⟨2, ![128, 18]⟩
abbrev S128x13 : Shape := ⟨2, ![128, 13]⟩
abbrev S128x1037 : Shape := ⟨2, ![128, 1037]⟩
abbrev S128x17 : Shape := ⟨2, ![128, 17]⟩
abbrev S128x14 : Shape := ⟨2, ![128, 14]⟩
abbrev S128x1038 : Shape := ⟨2, ![128, 1038]⟩
abbrev S128x16 : Shape := ⟨2, ![128, 16]⟩
abbrev S128x15 : Shape := ⟨2, ![128, 15]⟩
abbrev S128x1039 : Shape := ⟨2, ![128, 1039]⟩
abbrev S128x1040 : Shape := ⟨2, ![128, 1040]⟩
abbrev S128x1041 : Shape := ⟨2, ![128, 1041]⟩
abbrev S128x1042 : Shape := ⟨2, ![128, 1042]⟩
abbrev S128x1043 : Shape := ⟨2, ![128, 1043]⟩
abbrev S128x1044 : Shape := ⟨2, ![128, 1044]⟩
abbrev S128x1045 : Shape := ⟨2, ![128, 1045]⟩
abbrev S128x1046 : Shape := ⟨2, ![128, 1046]⟩
abbrev S128x1047 : Shape := ⟨2, ![128, 1047]⟩
abbrev S128x1048 : Shape := ⟨2, ![128, 1048]⟩
abbrev S128x1049 : Shape := ⟨2, ![128, 1049]⟩
abbrev S128x1050 : Shape := ⟨2, ![128, 1050]⟩
abbrev S128x1051 : Shape := ⟨2, ![128, 1051]⟩
abbrev S128x1052 : Shape := ⟨2, ![128, 1052]⟩
abbrev S128x1053 : Shape := ⟨2, ![128, 1053]⟩

abbrev nBuf : Space → Nat
  | .hbm => 3
  | .vmem => 6
  | .smem => 0
  | _ => 0

abbrev bufTy : (tb : Table) → Fin (tcTables nBuf tb) → BufTy
  | .hbm, ⟨0, _⟩ => ⟨S1x31x1024x1024, .f32⟩
  | .hbm, ⟨1, _⟩ => ⟨S1x1x1024x1024, .f32⟩
  | .hbm, ⟨2, _⟩ => ⟨S1x1x1024x1054, .f32⟩
  | .local _ .vmem, ⟨0, _⟩ => ⟨S1x31x128x1024, .f32⟩
  | .local _ .vmem, ⟨1, _⟩ => ⟨S1x31x128x1024, .f32⟩
  | .local _ .vmem, ⟨2, _⟩ => ⟨S1x1x128x1024, .f32⟩
  | .local _ .vmem, ⟨3, _⟩ => ⟨S1x1x128x1024, .f32⟩
  | .local _ .vmem, ⟨4, _⟩ => ⟨S1x1x128x1054, .f32⟩
  | .local _ .vmem, ⟨5, _⟩ => ⟨S1x1x128x1054, .f32⟩
  | _, _ => ⟨S1x31x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S1x31x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128x1054 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1x128x1024_S1x1x128x1024_0_0_0_0 : ∀ a, (![0, 0, 0, 0] : Fin 4 → Nat) a + S1x1x128x1024.size a ≤ S1x1x128x1024.size a
  h_S1x1x128x1024 : 0 < S1x1x128x1024.numel
  shapeCasts_S1x1x128x1024_S128x1024 : S1x1x128x1024.ShapeCasts S128x1024
  inb_S1x31x128x1024_S1x1x128x1024_0_0_0_0 : ∀ a, (![0, 0, 0, 0] : Fin 4 → Nat) a + S1x1x128x1024.size a ≤ S1x31x128x1024.size a
  concatenates_S128x1024_S128x30_S128x1054_d1 : Shape.Concatenates [S128x1024, S128x30] S128x1054 1
  inb_S1x31x128x1024_S1x1x128x1024_0_1_0_0 : ∀ a, (![0, 1, 0, 0] : Fin 4 → Nat) a + S1x1x128x1024.size a ≤ S1x31x128x1024.size a
  concatenates_S128x1_S128x1024_S128x1025_d1 : Shape.Concatenates [S128x1, S128x1024] S128x1025 1
  concatenates_S128x1025_S128x29_S128x1054_d1 : Shape.Concatenates [S128x1025, S128x29] S128x1054 1
  inb_S1x31x128x1024_S1x1x128x1024_0_2_0_0 : ∀ a, (![0, 2, 0, 0] : Fin 4 → Nat) a + S1x1x128x1024.size a ≤ S1x31x128x1024.size a
  concatenates_S128x2_S128x1024_S128x1026_d1 : Shape.Concatenates [S128x2, S128x1024] S128x1026 1
  concatenates_S128x1026_S128x28_S128x1054_d1 : Shape.Concatenates [S128x1026, S128x28] S128x1054 1
  inb_S1x31x128x1024_S1x1x128x1024_0_3_0_0 : ∀ a, (![0, 3, 0, 0] : Fin 4 → Nat) a + S1x1x128x1024.size a ≤ S1x31x128x1024.size a
  concatenates_S128x3_S128x1024_S128x1027_d1 : Shape.Concatenates [S128x3, S128x1024] S128x1027 1
  concatenates_S128x1027_S128x27_S128x1054_d1 : Shape.Concatenates [S128x1027, S128x27] S128x1054 1
  inb_S1x31x128x1024_S1x1x128x1024_0_4_0_0 : ∀ a, (![0, 4, 0, 0] : Fin 4 → Nat) a + S1x1x128x1024.size a ≤ S1x31x128x1024.size a
  concatenates_S128x4_S128x1024_S128x1028_d1 : Shape.Concatenates [S128x4, S128x1024] S128x1028 1
  concatenates_S128x1028_S128x26_S128x1054_d1 : Shape.Concatenates [S128x1028, S128x26] S128x1054 1
  inb_S1x31x128x1024_S1x1x128x1024_0_5_0_0 : ∀ a, (![0, 5, 0, 0] : Fin 4 → Nat) a + S1x1x128x1024.size a ≤ S1x31x128x1024.size a
  concatenates_S128x5_S128x1024_S128x1029_d1 : Shape.Concatenates [S128x5, S128x1024] S128x1029 1
  concatenates_S128x1029_S128x25_S128x1054_d1 : Shape.Concatenates [S128x1029, S128x25] S128x1054 1
  inb_S1x31x128x1024_S1x1x128x1024_0_6_0_0 : ∀ a, (![0, 6, 0, 0] : Fin 4 → Nat) a + S1x1x128x1024.size a ≤ S1x31x128x1024.size a
  concatenates_S128x6_S128x1024_S128x1030_d1 : Shape.Concatenates [S128x6, S128x1024] S128x1030 1
  concatenates_S128x1030_S128x24_S128x1054_d1 : Shape.Concatenates [S128x1030, S128x24] S128x1054 1
  inb_S1x31x128x1024_S1x1x128x1024_0_7_0_0 : ∀ a, (![0, 7, 0, 0] : Fin 4 → Nat) a + S1x1x128x1024.size a ≤ S1x31x128x1024.size a
  concatenates_S128x7_S128x1024_S128x1031_d1 : Shape.Concatenates [S128x7, S128x1024] S128x1031 1
  concatenates_S128x1031_S128x23_S128x1054_d1 : Shape.Concatenates [S128x1031, S128x23] S128x1054 1
  inb_S1x31x128x1024_S1x1x128x1024_0_8_0_0 : ∀ a, (![0, 8, 0, 0] : Fin 4 → Nat) a + S1x1x128x1024.size a ≤ S1x31x128x1024.size a
  concatenates_S128x8_S128x1024_S128x1032_d1 : Shape.Concatenates [S128x8, S128x1024] S128x1032 1
  concatenates_S128x1032_S128x22_S128x1054_d1 : Shape.Concatenates [S128x1032, S128x22] S128x1054 1
  inb_S1x31x128x1024_S1x1x128x1024_0_9_0_0 : ∀ a, (![0, 9, 0, 0] : Fin 4 → Nat) a + S1x1x128x1024.size a ≤ S1x31x128x1024.size a
  concatenates_S128x9_S128x1024_S128x1033_d1 : Shape.Concatenates [S128x9, S128x1024] S128x1033 1
  concatenates_S128x1033_S128x21_S128x1054_d1 : Shape.Concatenates [S128x1033, S128x21] S128x1054 1
  inb_S1x31x128x1024_S1x1x128x1024_0_10_0_0 : ∀ a, (![0, 10, 0, 0] : Fin 4 → Nat) a + S1x1x128x1024.size a ≤ S1x31x128x1024.size a
  concatenates_S128x10_S128x1024_S128x1034_d1 : Shape.Concatenates [S128x10, S128x1024] S128x1034 1
  concatenates_S128x1034_S128x20_S128x1054_d1 : Shape.Concatenates [S128x1034, S128x20] S128x1054 1
  inb_S1x31x128x1024_S1x1x128x1024_0_11_0_0 : ∀ a, (![0, 11, 0, 0] : Fin 4 → Nat) a + S1x1x128x1024.size a ≤ S1x31x128x1024.size a
  concatenates_S128x11_S128x1024_S128x1035_d1 : Shape.Concatenates [S128x11, S128x1024] S128x1035 1
  concatenates_S128x1035_S128x19_S128x1054_d1 : Shape.Concatenates [S128x1035, S128x19] S128x1054 1
  inb_S1x31x128x1024_S1x1x128x1024_0_12_0_0 : ∀ a, (![0, 12, 0, 0] : Fin 4 → Nat) a + S1x1x128x1024.size a ≤ S1x31x128x1024.size a
  concatenates_S128x12_S128x1024_S128x1036_d1 : Shape.Concatenates [S128x12, S128x1024] S128x1036 1
  concatenates_S128x1036_S128x18_S128x1054_d1 : Shape.Concatenates [S128x1036, S128x18] S128x1054 1
  inb_S1x31x128x1024_S1x1x128x1024_0_13_0_0 : ∀ a, (![0, 13, 0, 0] : Fin 4 → Nat) a + S1x1x128x1024.size a ≤ S1x31x128x1024.size a
  concatenates_S128x13_S128x1024_S128x1037_d1 : Shape.Concatenates [S128x13, S128x1024] S128x1037 1
  concatenates_S128x1037_S128x17_S128x1054_d1 : Shape.Concatenates [S128x1037, S128x17] S128x1054 1
  inb_S1x31x128x1024_S1x1x128x1024_0_14_0_0 : ∀ a, (![0, 14, 0, 0] : Fin 4 → Nat) a + S1x1x128x1024.size a ≤ S1x31x128x1024.size a
  concatenates_S128x14_S128x1024_S128x1038_d1 : Shape.Concatenates [S128x14, S128x1024] S128x1038 1
  concatenates_S128x1038_S128x16_S128x1054_d1 : Shape.Concatenates [S128x1038, S128x16] S128x1054 1
  inb_S1x31x128x1024_S1x1x128x1024_0_15_0_0 : ∀ a, (![0, 15, 0, 0] : Fin 4 → Nat) a + S1x1x128x1024.size a ≤ S1x31x128x1024.size a
  concatenates_S128x15_S128x1024_S128x1039_d1 : Shape.Concatenates [S128x15, S128x1024] S128x1039 1
  concatenates_S128x1039_S128x15_S128x1054_d1 : Shape.Concatenates [S128x1039, S128x15] S128x1054 1
  inb_S1x31x128x1024_S1x1x128x1024_0_16_0_0 : ∀ a, (![0, 16, 0, 0] : Fin 4 → Nat) a + S1x1x128x1024.size a ≤ S1x31x128x1024.size a
  concatenates_S128x16_S128x1024_S128x1040_d1 : Shape.Concatenates [S128x16, S128x1024] S128x1040 1
  concatenates_S128x1040_S128x14_S128x1054_d1 : Shape.Concatenates [S128x1040, S128x14] S128x1054 1
  inb_S1x31x128x1024_S1x1x128x1024_0_17_0_0 : ∀ a, (![0, 17, 0, 0] : Fin 4 → Nat) a + S1x1x128x1024.size a ≤ S1x31x128x1024.size a
  concatenates_S128x17_S128x1024_S128x1041_d1 : Shape.Concatenates [S128x17, S128x1024] S128x1041 1
  concatenates_S128x1041_S128x13_S128x1054_d1 : Shape.Concatenates [S128x1041, S128x13] S128x1054 1
  inb_S1x31x128x1024_S1x1x128x1024_0_18_0_0 : ∀ a, (![0, 18, 0, 0] : Fin 4 → Nat) a + S1x1x128x1024.size a ≤ S1x31x128x1024.size a
  concatenates_S128x18_S128x1024_S128x1042_d1 : Shape.Concatenates [S128x18, S128x1024] S128x1042 1
  concatenates_S128x1042_S128x12_S128x1054_d1 : Shape.Concatenates [S128x1042, S128x12] S128x1054 1
  inb_S1x31x128x1024_S1x1x128x1024_0_19_0_0 : ∀ a, (![0, 19, 0, 0] : Fin 4 → Nat) a + S1x1x128x1024.size a ≤ S1x31x128x1024.size a
  concatenates_S128x19_S128x1024_S128x1043_d1 : Shape.Concatenates [S128x19, S128x1024] S128x1043 1
  concatenates_S128x1043_S128x11_S128x1054_d1 : Shape.Concatenates [S128x1043, S128x11] S128x1054 1
  inb_S1x31x128x1024_S1x1x128x1024_0_20_0_0 : ∀ a, (![0, 20, 0, 0] : Fin 4 → Nat) a + S1x1x128x1024.size a ≤ S1x31x128x1024.size a
  concatenates_S128x20_S128x1024_S128x1044_d1 : Shape.Concatenates [S128x20, S128x1024] S128x1044 1
  concatenates_S128x1044_S128x10_S128x1054_d1 : Shape.Concatenates [S128x1044, S128x10] S128x1054 1
  inb_S1x31x128x1024_S1x1x128x1024_0_21_0_0 : ∀ a, (![0, 21, 0, 0] : Fin 4 → Nat) a + S1x1x128x1024.size a ≤ S1x31x128x1024.size a
  concatenates_S128x21_S128x1024_S128x1045_d1 : Shape.Concatenates [S128x21, S128x1024] S128x1045 1
  concatenates_S128x1045_S128x9_S128x1054_d1 : Shape.Concatenates [S128x1045, S128x9] S128x1054 1
  inb_S1x31x128x1024_S1x1x128x1024_0_22_0_0 : ∀ a, (![0, 22, 0, 0] : Fin 4 → Nat) a + S1x1x128x1024.size a ≤ S1x31x128x1024.size a
  concatenates_S128x22_S128x1024_S128x1046_d1 : Shape.Concatenates [S128x22, S128x1024] S128x1046 1
  concatenates_S128x1046_S128x8_S128x1054_d1 : Shape.Concatenates [S128x1046, S128x8] S128x1054 1
  inb_S1x31x128x1024_S1x1x128x1024_0_23_0_0 : ∀ a, (![0, 23, 0, 0] : Fin 4 → Nat) a + S1x1x128x1024.size a ≤ S1x31x128x1024.size a
  concatenates_S128x23_S128x1024_S128x1047_d1 : Shape.Concatenates [S128x23, S128x1024] S128x1047 1
  concatenates_S128x1047_S128x7_S128x1054_d1 : Shape.Concatenates [S128x1047, S128x7] S128x1054 1
  inb_S1x31x128x1024_S1x1x128x1024_0_24_0_0 : ∀ a, (![0, 24, 0, 0] : Fin 4 → Nat) a + S1x1x128x1024.size a ≤ S1x31x128x1024.size a
  concatenates_S128x24_S128x1024_S128x1048_d1 : Shape.Concatenates [S128x24, S128x1024] S128x1048 1
  concatenates_S128x1048_S128x6_S128x1054_d1 : Shape.Concatenates [S128x1048, S128x6] S128x1054 1
  inb_S1x31x128x1024_S1x1x128x1024_0_25_0_0 : ∀ a, (![0, 25, 0, 0] : Fin 4 → Nat) a + S1x1x128x1024.size a ≤ S1x31x128x1024.size a
  concatenates_S128x25_S128x1024_S128x1049_d1 : Shape.Concatenates [S128x25, S128x1024] S128x1049 1
  concatenates_S128x1049_S128x5_S128x1054_d1 : Shape.Concatenates [S128x1049, S128x5] S128x1054 1
  inb_S1x31x128x1024_S1x1x128x1024_0_26_0_0 : ∀ a, (![0, 26, 0, 0] : Fin 4 → Nat) a + S1x1x128x1024.size a ≤ S1x31x128x1024.size a
  concatenates_S128x26_S128x1024_S128x1050_d1 : Shape.Concatenates [S128x26, S128x1024] S128x1050 1
  concatenates_S128x1050_S128x4_S128x1054_d1 : Shape.Concatenates [S128x1050, S128x4] S128x1054 1
  inb_S1x31x128x1024_S1x1x128x1024_0_27_0_0 : ∀ a, (![0, 27, 0, 0] : Fin 4 → Nat) a + S1x1x128x1024.size a ≤ S1x31x128x1024.size a
  concatenates_S128x27_S128x1024_S128x1051_d1 : Shape.Concatenates [S128x27, S128x1024] S128x1051 1
  concatenates_S128x1051_S128x3_S128x1054_d1 : Shape.Concatenates [S128x1051, S128x3] S128x1054 1
  inb_S1x31x128x1024_S1x1x128x1024_0_28_0_0 : ∀ a, (![0, 28, 0, 0] : Fin 4 → Nat) a + S1x1x128x1024.size a ≤ S1x31x128x1024.size a
  concatenates_S128x28_S128x1024_S128x1052_d1 : Shape.Concatenates [S128x28, S128x1024] S128x1052 1
  concatenates_S128x1052_S128x2_S128x1054_d1 : Shape.Concatenates [S128x1052, S128x2] S128x1054 1
  inb_S1x31x128x1024_S1x1x128x1024_0_29_0_0 : ∀ a, (![0, 29, 0, 0] : Fin 4 → Nat) a + S1x1x128x1024.size a ≤ S1x31x128x1024.size a
  concatenates_S128x29_S128x1024_S128x1053_d1 : Shape.Concatenates [S128x29, S128x1024] S128x1053 1
  concatenates_S128x1053_S128x1_S128x1054_d1 : Shape.Concatenates [S128x1053, S128x1] S128x1054 1
  inb_S1x31x128x1024_S1x1x128x1024_0_30_0_0 : ∀ a, (![0, 30, 0, 0] : Fin 4 → Nat) a + S1x1x128x1024.size a ≤ S1x31x128x1024.size a
  concatenates_S128x30_S128x1024_S128x1054_d1 : Shape.Concatenates [S128x30, S128x1024] S128x1054 1
  inb_S1x1x128x1054_S1x1x128x1054_0_0_0_0 : ∀ a, (![0, 0, 0, 0] : Fin 4 → Nat) a + S1x1x128x1054.size a ≤ S1x1x128x1054.size a
  h_S1x1x128x1054 : 0 < S1x1x128x1054.numel
  shapeCasts_S1x1x128x1054_S128x1054 : S1x1x128x1054.ShapeCasts S128x1054
  shapeCasts_S128x1054_S1x1x128x1054 : S128x1054.ShapeCasts S1x1x128x1054
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x31x128x1024.size a ≤ S1x31x1024x1024.size a
  hwx0_0 : ∀ i : grid0.Coords, EltTy.bits .f32 = 32 ∨ (Rect.block (s := S1x31x1024x1024) S1x31x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128x1024.size a ≤ S1x1x1024x1024.size a
  hwx0_1 : ∀ i : grid0.Coords, EltTy.bits .f32 = 32 ∨ (Rect.block (s := S1x1x1024x1024) S1x1x128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x1054.size a ≤ S1x1x1024x1054.size a
  hwx0_2 : ∀ i : grid0.Coords, EltTy.bits .f32 = 32 ∨ (Rect.block (s := S1x1x1024x1054) S1x1x128x1054.size (cc0_transform_2 i) (hinb0_2 i)).WholeWords (EltTy.packing .f32)

variable [Facts₀]

abbrev win0_0 : Pipeline.Window sig grid0 :=
  Pipeline.Window.ofSpec (Memref.whole main_arg0) S1x31x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128x1054.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x31x1024x1024 : Shape := ⟨4, ![1, 31, 1024, 1024]⟩
abbrev S1x1x1024x1024 : Shape := ⟨4, ![1, 1, 1024, 1024]⟩
abbrev S31 : Shape := ⟨1, ![31]⟩
abbrev S31x1 : Shape := ⟨2, ![31, 1]⟩
abbrev S1024 : Shape := ⟨1, ![1024]⟩
abbrev S1x1024 : Shape := ⟨2, ![1, 1024]⟩
abbrev S31x1024 : Shape := ⟨2, ![31, 1024]⟩
abbrev S_ : Shape := ⟨0, ![]⟩
abbrev S1x1024x1054 : Shape := ⟨3, ![1, 1024, 1054]⟩
abbrev S1x1024x31x1024 : Shape := ⟨4, ![1, 1024, 31, 1024]⟩
abbrev S31x1024x1 : Shape := ⟨3, ![31, 1024, 1]⟩
abbrev S1x1x1024x1054 : Shape := ⟨4, ![1, 1, 1024, 1054]⟩

abbrev nBuf : Space → Nat
  | .hbm => 24
  | .vmem => 0
  | .smem => 0
  | _ => 0

abbrev bufTy : (tb : Table) → Fin (tcTables nBuf tb) → BufTy
  | .hbm, ⟨0, _⟩ => ⟨S1x31x1024x1024, .f32⟩
  | .hbm, ⟨1, _⟩ => ⟨S1x1x1024x1024, .f32⟩
  | .hbm, ⟨2, _⟩ => ⟨S1x31x1024x1024, .f32⟩
  | .hbm, ⟨3, _⟩ => ⟨S1x31x1024x1024, .f32⟩
  | .hbm, ⟨4, _⟩ => ⟨S31, .i32⟩
  | .hbm, ⟨5, _⟩ => ⟨S31x1, .i32⟩
  | .hbm, ⟨6, _⟩ => ⟨S1024, .i32⟩
  | .hbm, ⟨7, _⟩ => ⟨S1x1024, .i32⟩
  | .hbm, ⟨8, _⟩ => ⟨S31x1024, .i32⟩
  | .hbm, ⟨9, _⟩ => ⟨S31x1024, .i32⟩
  | .hbm, ⟨10, _⟩ => ⟨S31x1024, .i32⟩
  | .hbm, ⟨11, _⟩ => ⟨S_, .f32⟩
  | .hbm, ⟨12, _⟩ => ⟨S1x1024x1054, .f32⟩
  | .hbm, ⟨13, _⟩ => ⟨S1x1024x31x1024, .f32⟩
  | .hbm, ⟨14, _⟩ => ⟨S_, .i32⟩
  | .hbm, ⟨15, _⟩ => ⟨S31x1024, .i32⟩
  | .hbm, ⟨16, _⟩ => ⟨S31x1024, .i1⟩
  | .hbm, ⟨17, _⟩ => ⟨S_, .i32⟩
  | .hbm, ⟨18, _⟩ => ⟨S31x1024, .i32⟩
  | .hbm, ⟨19, _⟩ => ⟨S31x1024, .i32⟩
  | .hbm, ⟨20, _⟩ => ⟨S31x1024, .i32⟩
  | .hbm, ⟨21, _⟩ => ⟨S31x1024x1, .i32⟩
  | .hbm, ⟨22, _⟩ => ⟨S1x1024x1054, .f32⟩
  | .hbm, ⟨23, _⟩ => ⟨S1x1x1024x1054, .f32⟩
  | _, _ => ⟨S1x31x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S1x1x1024x1024_S1x31x1024x1024_0_1_2_3 : S1x1x1024x1024.BroadcastsInDim S1x31x1024x1024 (![0, 1, 2, 3] : Fin 4 → Fin S1x31x1024x1024.rank)
  bcast_S31_S31x1_0 : S31.BroadcastsInDim S31x1 (![0] : Fin 1 → Fin S31x1.rank)
  bcast_S1024_S1x1024_1 : S1024.BroadcastsInDim S1x1024 (![1] : Fin 1 → Fin S1x1024.rank)
  bcast_S31x1_S31x1024_0_1 : S31x1.BroadcastsInDim S31x1024 (![0, 1] : Fin 2 → Fin S31x1024.rank)
  bcast_S1x1024_S31x1024_0_1 : S1x1024.BroadcastsInDim S31x1024 (![0, 1] : Fin 2 → Fin S31x1024.rank)
  bcast_S_S1x1024x1054 : S_.BroadcastsInDim S1x1024x1054 (![] : Fin 0 → Fin S1x1024x1054.rank)
  transposes_S1x31x1024x1024_S1x1024x31x1024_0_2_1_3 : S1x31x1024x1024.Transposes [0, 2, 1, 3] S1x1024x31x1024
  bcast_S_S31x1024 : S_.BroadcastsInDim S31x1024 (![] : Fin 0 → Fin S31x1024.rank)
  bcast_S31x1024_S31x1024x1_0_1 : S31x1024.BroadcastsInDim S31x1024x1 (![0, 1] : Fin 2 → Fin S31x1024x1.rank)
  bcast_S1x1024x1054_S1x1x1024x1054_0_2_3 : S1x1024x1054.BroadcastsInDim S1x1x1024x1054 (![0, 2, 3] : Fin 3 → Fin S1x1x1024x1054.rank)
  scatter_S1x1024x1054_S31x1024x1_S1x1024x31x1024_01_2_2_2_wf : ScatterDims.WF S1x1024x1054 S31x1024x1 S1x1024x31x1024 [0, 1] [2] [2] 2

variable [Facts₀]

def scatter_S1x1024x1054_S31x1024x1_S1x1024x31x1024_01_2_2_2 : ScatterDims S1x1024x1054 S31x1024x1 S1x1024x31x1024 where
  updateWindowDims := [0, 1]
  insertedWindowDims := [2]
  scatterDimsToOperandDims := [2]
  indexVectorDim := 2
  wf := scatter_S1x1024x1054_S31x1024x1_S1x1024x31x1024_01_2_2_2_wf

class Facts : Prop extends Facts₀ where

variable [Facts]
-- ==== Proof.Pad.lean ====
/-
  Zero padding along the columns, read at an index.

  The kernel moves a band `l` columns to the right by laying `l` zero columns before it and the rest behind it.
  Read at row `r`, column `c`, a block with `a` constant columns in front is the constant for `c < a` and the
  block's own entry `c - a` otherwise; a block with constant columns behind is its own entry below its width and
  the constant from there on. Beside them: a `[1, 1, a, b]` block viewed as `[a, b]` and back, entry by entry, and
  the integer zero converted to a float, which is the real zero.
-/
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Shear

variable {α : Type}

/-- `a` constant columns in front of a block of `n` columns: left of column `a` the constant, from there on the
    block `a` columns back. -/
theorem padLeft_apply {R a n an : ℕ} (han : an = a + n) (z : α) (v : (⟨2, ![R, n]⟩ : Shape).Idx → α)
    (h : Shape.Concatenates [(⟨2, ![R, a]⟩ : Shape), ⟨2, ![R, n]⟩] ⟨2, ![R, an]⟩ (1 : Fin 2)) (r : Fin R) (c : Fin an) :
    concatenate ⟨2, ![R, an]⟩ (1 : Fin 2) [⟨⟨2, ![R, a]⟩, broadcast ⟨2, ![R, a]⟩ z⟩, ⟨⟨2, ![R, n]⟩, v⟩] h (ix2 r c)
      = if hc : a ≤ c.val then v (ix2 r ⟨c.val - a, by have := c.isLt; omega⟩) else z := by
  by_cases hc : a ≤ c.val
  · rw [dif_pos hc]
    refine concatenate_pair_apply_right (1 : Fin 2) (broadcast ⟨2, ![R, a]⟩ z) v h (ix2 r c) rfl rfl
      (ix2 r ⟨c.val - a, by have := c.isLt; omega⟩) (fun b hb => ?_) ?_
    · match b with
      | ⟨0, _⟩ => rfl
      | ⟨1, _⟩ => exact absurd rfl hb
    · show (c.val - a) + a = c.val
      omega
  · rw [dif_neg hc]
    exact concatenate_pair_apply_left (1 : Fin 2) (broadcast ⟨2, ![R, a]⟩ z) v h (ix2 r c) rfl
      (ix2 r ⟨c.val, by omega⟩) (fun b => by match b with | ⟨0, _⟩ => rfl | ⟨1, _⟩ => rfl)

/-- `b` constant columns behind a block of `n` columns: below column `n` the block, from there on the constant. -/
theorem padRight_apply {R n b nb : ℕ} (hnb : nb = n + b) (z : α) (w : (⟨2, ![R, n]⟩ : Shape).Idx → α)
    (h : Shape.Concatenates [(⟨2, ![R, n]⟩ : Shape), ⟨2, ![R, b]⟩] ⟨2, ![R, nb]⟩ (1 : Fin 2)) (r : Fin R) (c : Fin nb) :
    concatenate ⟨2, ![R, nb]⟩ (1 : Fin 2) [⟨⟨2, ![R, n]⟩, w⟩, ⟨⟨2, ![R, b]⟩, broadcast ⟨2, ![R, b]⟩ z⟩] h (ix2 r c)
      = if hc : c.val < n then w (ix2 r ⟨c.val, hc⟩) else z := by
  by_cases hc : c.val < n
  · rw [dif_pos hc]
    exact concatenate_pair_apply_left (1 : Fin 2) w (broadcast ⟨2, ![R, b]⟩ z) h (ix2 r c) rfl
      (ix2 r ⟨c.val, hc⟩) (fun d => by match d with | ⟨0, _⟩ => rfl | ⟨1, _⟩ => rfl)
  · rw [dif_neg hc]
    refine concatenate_pair_apply_right (1 : Fin 2) w (broadcast ⟨2, ![R, b]⟩ z) h (ix2 r c) rfl rfl
      (ix2 r ⟨c.val - n, by have := c.isLt; omega⟩) (fun d hd => ?_) ?_
    · match d with
      | ⟨0, _⟩ => rfl
      | ⟨1, _⟩ => exact absurd rfl hd
    · show (c.val - n) + n = c.val
      omega

/-- A `[1, 1, a, b]` block viewed as `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` block viewed as `[1, 1, a, b]` reads, at `(u, v, i, j)`, the block at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- The integer zero converted to a float is the real zero. -/
theorem sitofp_zero : Scalar.sitofp (F := Ideal) .f32 (0#32) = (0 : EReal) := by
  rw [Ideal.scalar_sitofp_def]
  simp

/-- The zero word is the real zero. -/
theorem ofBits_zero : Scalar.ofBits (F := Ideal) .f32 0x00000000#32 = (0 : EReal) :=
  Ideal.ofBits_zero_f32

end Cert.Shear

end
-- ==== Proof.KernelPay.lean ====
/-
  The kernel body's arithmetic, read at one entry of the output block.

  The body keeps a running sum `acc` of 128 rows by 1054 columns, starting from zero; for each band `l = 0 … 30` it
  loads the band's slab of the cube block, multiplies it by the aperture block, lays `l` zero columns in front and
  `30 - l` behind, and adds the result to `acc`. At row `r`, column `c` the padded product is the masked entry
  `c - l` columns in when `l ≤ c < l + 1024` and zero otherwise (`bandAt`), so each payload — the body's text is
  cut into consecutive windows, one payload per value a window hands on — is the running sum it was given plus the
  bands it adds. Nothing here uses more than the two readings of a padded block in `Pad`.
-/
import proofs.«127738_j41721312314035_1_alg».proof.Proof.Gen.KernelIdeal.Skeleton
import proofs.«127738_j41721312314035_1_alg».proof.Proof.Pad

noncomputable section

open Idealize.ShloMosaic Idealize.ShloMosaic.ValueIdx

namespace Cert.KernelIdeal.Pay

open Cert.KernelIdeal Cert.KernelIdeal.Gen Cert.Shear

/-- Band `l` of the block at row `r`, output column `c`: the masked entry `c - l` columns in, when there is
    one, and zero otherwise. `xl` is the band's slab of the cube block, `ca` the aperture block. -/
def bandAt (l : ℕ) (xl : Vec Ideal S1x1x128x1024 .f32) (ca : FVec Ideal S128x1024 .f32) (r : Fin 128) (c : Fin 1054) : EReal :=
  if h : l ≤ c.val ∧ c.val - l < 1024 then
    xl (ix4 (0 : Fin 1) (0 : Fin 1) r ⟨c.val - l, h.2⟩) * ca (ix2 r ⟨c.val - l, h.2⟩)
  else 0

/-- The masked slab at an entry: the slab's entry times the aperture's. -/
theorem prod_apply (xl : Vec Ideal S1x1x128x1024 .f32) (ca : FVec Ideal S128x1024 .f32)
    (hc : S1x1x128x1024.ShapeCasts S128x1024) (r : Fin 128) (n : Fin 1024) :
    mulf (shapeCast S128x1024 xl hc) ca (ix2 r n) = xl (ix4 (0 : Fin 1) (0 : Fin 1) r n) * ca (ix2 r n) := by
  rw [mulf_apply, shapeCast_11ab_ab_apply]

/-- A masked slab `y` with `l` zero columns in front, at column `c` of its `l + 1024`. -/
theorem front_apply (l an : ℕ) (han : an = l + 1024) (z : EReal) (hz : z = 0)
    (xl : Vec Ideal S1x1x128x1024 .f32) (ca : FVec Ideal S128x1024 .f32) (y : FVec Ideal S128x1024 .f32)
    (hy : ∀ (r : Fin 128) (n : Fin 1024), y (ix2 r n) = xl (ix4 (0 : Fin 1) (0 : Fin 1) r n) * ca (ix2 r n))
    (h1 : Shape.Concatenates [(⟨2, ![128, l]⟩ : Shape), S128x1024] ⟨2, ![128, an]⟩ (1 : Fin 2)) (r : Fin 128) (c : Fin an) :
    concatenate ⟨2, ![128, an]⟩ (1 : Fin 2) [⟨⟨2, ![128, l]⟩, broadcast ⟨2, ![128, l]⟩ z⟩, ⟨S128x1024, y⟩] h1 (ix2 r c)
      = if h : l ≤ c.val then xl (ix4 (0 : Fin 1) (0 : Fin 1) r ⟨c.val - l, by have := c.isLt; omega⟩) * ca (ix2 r ⟨c.val - l, by have := c.isLt; omega⟩) else 0 := by
  rw [padLeft_apply han z y h1 r c]
  by_cases h : l ≤ c.val
  · rw [dif_pos h, dif_pos h, hy]
  · rw [dif_neg h, dif_neg h, hz]

/-- A front-padded slab `w` with zero columns behind it up to 1054 columns is the band. -/
theorem behind_apply (l an b : ℕ) (han : an = l + 1024) (hb : 1054 = an + b) (z : EReal) (hz : z = 0)
    (xl : Vec Ideal S1x1x128x1024 .f32) (ca : FVec Ideal S128x1024 .f32)
    (w : (⟨2, ![128, an]⟩ : Shape).Idx → EReal)
    (hw : ∀ (r : Fin 128) (c : Fin an), w (ix2 r c) = if h : l ≤ c.val then xl (ix4 (0 : Fin 1) (0 : Fin 1) r ⟨c.val - l, by have := c.isLt; omega⟩) * ca (ix2 r ⟨c.val - l, by have := c.isLt; omega⟩) else 0)
    (h2 : Shape.Concatenates [(⟨2, ![128, an]⟩ : Shape), ⟨2, ![128, b]⟩] S128x1054 (1 : Fin 2)) (r : Fin 128) (c : Fin 1054) :
    concatenate S128x1054 (1 : Fin 2) [⟨⟨2, ![128, an]⟩, w⟩, ⟨⟨2, ![128, b]⟩, broadcast ⟨2, ![128, b]⟩ z⟩] h2 (ix2 r c)
      = bandAt l xl ca r c := by
  rw [padRight_apply hb z w h2 r c]
  unfold bandAt
  by_cases hc : c.val < an
  · rw [dif_pos hc, hw]
    by_cases h : l ≤ c.val
    · rw [dif_pos h, dif_pos ⟨h, by omega⟩]
    · rw [dif_neg h, dif_neg (fun h' => h h'.1)]
  · rw [dif_neg hc, hz, dif_neg (fun h' => hc (by omega))]

/-- A band as the body lays it out — zero columns, a masked slab `y`, zero columns — at an entry. -/
theorem bandY_apply (l an b : ℕ) (han : an = l + 1024) (hb : 1054 = an + b) (z : EReal) (hz : z = 0)
    (xl : Vec Ideal S1x1x128x1024 .f32) (ca : FVec Ideal S128x1024 .f32) (y : FVec Ideal S128x1024 .f32)
    (hy : ∀ (r : Fin 128) (n : Fin 1024), y (ix2 r n) = xl (ix4 (0 : Fin 1) (0 : Fin 1) r n) * ca (ix2 r n))
    (h1 : Shape.Concatenates [(⟨2, ![128, l]⟩ : Shape), S128x1024] ⟨2, ![128, an]⟩ (1 : Fin 2))
    (h2 : Shape.Concatenates [(⟨2, ![128, an]⟩ : Shape), ⟨2, ![128, b]⟩] S128x1054 (1 : Fin 2)) (r : Fin 128) (c : Fin 1054) :
    concatenate S128x1054 (1 : Fin 2)
        [⟨⟨2, ![128, an]⟩, concatenate ⟨2, ![128, an]⟩ (1 : Fin 2)
            [⟨⟨2, ![128, l]⟩, broadcast ⟨2, ![128, l]⟩ z⟩, ⟨S128x1024, y⟩] h1⟩,
          ⟨⟨2, ![128, b]⟩, broadcast ⟨2, ![128, b]⟩ z⟩] h2 (ix2 r c)
      = bandAt l xl ca r c :=
  behind_apply l an b han hb z hz xl ca _ (fun r c => front_apply l an han z hz xl ca y hy h1 r c) h2 r c

/-- The same with the product written out, as most bands have it. -/
theorem band_apply (l an b : ℕ) (han : an = l + 1024) (hb : 1054 = an + b) (z : EReal) (hz : z = 0)
    (xl : Vec Ideal S1x1x128x1024 .f32) (ca : FVec Ideal S128x1024 .f32) (hc : S1x1x128x1024.ShapeCasts S128x1024)
    (h1 : Shape.Concatenates [(⟨2, ![128, l]⟩ : Shape), S128x1024] ⟨2, ![128, an]⟩ (1 : Fin 2))
    (h2 : Shape.Concatenates [(⟨2, ![128, an]⟩ : Shape), ⟨2, ![128, b]⟩] S128x1054 (1 : Fin 2)) (r : Fin 128) (c : Fin 1054) :
    concatenate S128x1054 (1 : Fin 2)
        [⟨⟨2, ![128, an]⟩, concatenate ⟨2, ![128, an]⟩ (1 : Fin 2)
            [⟨⟨2, ![128, l]⟩, broadcast ⟨2, ![128, l]⟩ z⟩, ⟨S128x1024, mulf (shapeCast S128x1024 xl hc) ca⟩] h1⟩,
          ⟨⟨2, ![128, b]⟩, broadcast ⟨2, ![128, b]⟩ z⟩] h2 (ix2 r c)
      = bandAt l xl ca r c :=
  bandY_apply l an b han hb z hz xl ca _ (prod_apply xl ca hc) h1 h2 r c

/-- Band 0 has no columns in front. -/
theorem band0_apply (z : EReal) (hz : z = 0)
    (xl : Vec Ideal S1x1x128x1024 .f32) (ca : FVec Ideal S128x1024 .f32) (hc : S1x1x128x1024.ShapeCasts S128x1024)
    (h2 : Shape.Concatenates [S128x1024, S128x30] S128x1054 (1 : Fin 2)) (r : Fin 128) (c : Fin 1054) :
    concatenate S128x1054 (1 : Fin 2) [⟨S128x1024, mulf (shapeCast S128x1024 xl hc) ca⟩, ⟨S128x30, broadcast S128x30 z⟩] h2 (ix2 r c)
      = bandAt 0 xl ca r c :=
  behind_apply 0 1024 30 rfl rfl z hz xl ca _ (fun r c => by
    rw [dif_pos (Nat.zero_le _), prod_apply]
    rfl) h2 r c

/-- Band 30 has no columns behind. -/
theorem band30_apply (z : EReal) (hz : z = 0)
    (xl : Vec Ideal S1x1x128x1024 .f32) (ca : FVec Ideal S128x1024 .f32) (hc : S1x1x128x1024.ShapeCasts S128x1024)
    (h1 : Shape.Concatenates [S128x30, S128x1024] S128x1054 (1 : Fin 2)) (r : Fin 128) (c : Fin 1054) :
    concatenate S128x1054 (1 : Fin 2) [⟨S128x30, broadcast S128x30 z⟩, ⟨S128x1024, mulf (shapeCast S128x1024 xl hc) ca⟩] h1 (ix2 r c)
      = bandAt 30 xl ca r c := by
  rw [front_apply 30 1054 rfl z hz xl ca _ (prod_apply xl ca hc) h1 r c]
  unfold bandAt
  by_cases h : 30 ≤ c.val
  · rw [dif_pos h, dif_pos ⟨h, by have := c.isLt; omega⟩]
  · rw [dif_neg h, dif_neg (fun h' => h h'.1)]

/-! ## The payloads, window by window -/

theorem pay4_zero : k0_pay4 (F := Ideal) = (0 : EReal) := sitofp_zero
theorem pay10_zero : k0_pay10 (F := Ideal) = (0 : EReal) := sitofp_zero

/-- The aperture block viewed as 128 × 1024. -/
theorem pay2_apply (v0 : Vec Ideal S1x1x128x1024 .f32) (r : Fin 128) (n : Fin 1024) :
    k0_pay2 v0 (ix2 r n) = v0 (ix4 (0 : Fin 1) (0 : Fin 1) r n) := by
  unfold k0_pay2
  rw [shapeCast_11ab_ab_apply]

/-- Bands 0, 1, 2 onto the zero block. -/
theorem pay3_apply (v0 v3 v10 v19 : Vec Ideal S1x1x128x1024 .f32) (r : Fin 128) (c : Fin 1054) :
    k0_pay3 v0 v3 v10 v19 (ix2 r c)
      = 0 + bandAt 0 v3 (k0_pay2 v0) r c + bandAt 1 v10 (k0_pay2 v0) r c + bandAt 2 v19 (k0_pay2 v0) r c := by
  unfold k0_pay3
  simp only [addf_apply, broadcast_apply, ofBits_zero]
  rw [band0_apply _ sitofp_zero, band_apply 1 1025 29 rfl rfl _ sitofp_zero, band_apply 2 1026 28 rfl rfl _ sitofp_zero]

/-- Band 3's slab with its three zero columns in front. -/
theorem pay5_apply (v0 v28 : Vec Ideal S1x1x128x1024 .f32) (r : Fin 128) (c : Fin 1027) :
    k0_pay5 v0 v28 (ix2 r c) = if h : 3 ≤ c.val then v28 (ix4 (0 : Fin 1) (0 : Fin 1) r ⟨c.val - 3, by have := c.isLt; omega⟩) * k0_pay2 v0 (ix2 r ⟨c.val - 3, by have := c.isLt; omega⟩) else 0 := by
  unfold k0_pay5
  exact front_apply 3 1027 rfl _ pay4_zero v28 (k0_pay2 v0) _ (prod_apply v28 (k0_pay2 v0) _) _ r c

/-- Bands 3 … 7 onto the running sum; band 3 arrives front-padded. -/
theorem pay6_apply (v1 : FVec Ideal S128x1024 .f32) (v27 : FVec Ideal S128x1054 .f32) (v31 : EReal) (hv31 : v31 = 0)
    (v33 : FVec Ideal S128x1027 .f32) (x3 : Vec Ideal S1x1x128x1024 .f32)
    (hv33 : ∀ (r : Fin 128) (c : Fin 1027), v33 (ix2 r c) = if h : 3 ≤ c.val then x3 (ix4 (0 : Fin 1) (0 : Fin 1) r ⟨c.val - 3, by have := c.isLt; omega⟩) * v1 (ix2 r ⟨c.val - 3, by have := c.isLt; omega⟩) else 0)
    (v37 v46 v55 v64 : Vec Ideal S1x1x128x1024 .f32) (r : Fin 128) (c : Fin 1054) :
    k0_pay6 v1 v27 v31 v33 v37 v46 v55 v64 (ix2 r c)
      = v27 (ix2 r c) + bandAt 3 x3 v1 r c + bandAt 4 v37 v1 r c + bandAt 5 v46 v1 r c + bandAt 6 v55 v1 r c + bandAt 7 v64 v1 r c := by
  unfold k0_pay6
  simp only [addf_apply]
  rw [behind_apply 3 1027 27 rfl rfl v31 hv31 x3 v1 v33 hv33, band_apply 4 1028 26 rfl rfl _ sitofp_zero,
    band_apply 5 1029 25 rfl rfl _ sitofp_zero, band_apply 6 1030 24 rfl rfl _ sitofp_zero, band_apply 7 1031 23 rfl rfl _ sitofp_zero]

/-- Bands 8 … 11 onto the running sum. -/
theorem pay7_apply (v1 : FVec Ideal S128x1024 .f32) (v72 : FVec Ideal S128x1054 .f32)
    (v73 v82 v91 v100 : Vec Ideal S1x1x128x1024 .f32) (r : Fin 128) (c : Fin 1054) :
    k0_pay7 v1 v72 v73 v82 v91 v100 (ix2 r c)
      = v72 (ix2 r c) + bandAt 8 v73 v1 r c + bandAt 9 v82 v1 r c + bandAt 10 v91 v1 r c + bandAt 11 v100 v1 r c := by
  unfold k0_pay7
  simp only [addf_apply]
  rw [band_apply 8 1032 22 rfl rfl _ sitofp_zero, band_apply 9 1033 21 rfl rfl _ sitofp_zero,
    band_apply 10 1034 20 rfl rfl _ sitofp_zero, band_apply 11 1035 19 rfl rfl _ sitofp_zero]

/-- Bands 12 … 15 onto the running sum. -/
theorem pay8_apply (v1 : FVec Ideal S128x1024 .f32) (v108 : FVec Ideal S128x1054 .f32)
    (v109 v118 v127 v136 : Vec Ideal S1x1x128x1024 .f32) (r : Fin 128) (c : Fin 1054) :
    k0_pay8 v1 v108 v109 v118 v127 v136 (ix2 r c)
      = v108 (ix2 r c) + bandAt 12 v109 v1 r c + bandAt 13 v118 v1 r c + bandAt 14 v127 v1 r c + bandAt 15 v136 v1 r c := by
  unfold k0_pay8
  simp only [addf_apply]
  rw [band_apply 12 1036 18 rfl rfl _ sitofp_zero, band_apply 13 1037 17 rfl rfl _ sitofp_zero,
    band_apply 14 1038 16 rfl rfl _ sitofp_zero, band_apply 15 1039 15 rfl rfl _ sitofp_zero]

/-- Band 16's masked slab. -/
theorem pay9_apply (v1 : FVec Ideal S128x1024 .f32) (v145 : Vec Ideal S1x1x128x1024 .f32) (r : Fin 128) (n : Fin 1024) :
    k0_pay9 v1 v145 (ix2 r n) = v145 (ix4 (0 : Fin 1) (0 : Fin 1) r n) * v1 (ix2 r n) := by
  unfold k0_pay9
  exact prod_apply v145 v1 _ r n

/-- Bands 16 … 19 onto the running sum; band 16's product arrives computed. -/
theorem pay11_apply (v1 : FVec Ideal S128x1024 .f32) (v144 : FVec Ideal S128x1054 .f32) (v147 : FVec Ideal S128x1024 .f32)
    (x16 : Vec Ideal S1x1x128x1024 .f32)
    (hv147 : ∀ (r : Fin 128) (n : Fin 1024), v147 (ix2 r n) = x16 (ix4 (0 : Fin 1) (0 : Fin 1) r n) * v1 (ix2 r n))
    (v148 : EReal) (hv148 : v148 = 0) (v154 v163 v172 : Vec Ideal S1x1x128x1024 .f32) (r : Fin 128) (c : Fin 1054) :
    k0_pay11 v1 v144 v147 v148 v154 v163 v172 (ix2 r c)
      = v144 (ix2 r c) + bandAt 16 x16 v1 r c + bandAt 17 v154 v1 r c + bandAt 18 v163 v1 r c + bandAt 19 v172 v1 r c := by
  unfold k0_pay11
  simp only [addf_apply]
  rw [bandY_apply 16 1040 14 rfl rfl v148 hv148 x16 v1 v147 hv147, band_apply 17 1041 13 rfl rfl _ sitofp_zero,
    band_apply 18 1042 12 rfl rfl _ sitofp_zero, band_apply 19 1043 11 rfl rfl _ sitofp_zero]

/-- Band 20, whole. -/
theorem pay12_apply (v1 : FVec Ideal S128x1024 .f32) (v181 : Vec Ideal S1x1x128x1024 .f32) (r : Fin 128) (c : Fin 1054) :
    k0_pay12 v1 v181 (ix2 r c) = bandAt 20 v181 v1 r c := by
  unfold k0_pay12
  exact band_apply 20 1044 10 rfl rfl _ sitofp_zero v181 v1 _ _ _ r c

/-- Bands 20 … 24 onto the running sum; band 20 arrives whole. -/
theorem pay13_apply (v1 : FVec Ideal S128x1024 .f32) (v180 v188 : FVec Ideal S128x1054 .f32)
    (v190 v199 v208 v217 : Vec Ideal S1x1x128x1024 .f32) (r : Fin 128) (c : Fin 1054) :
    k0_pay13 v1 v180 v188 v190 v199 v208 v217 (ix2 r c)
      = v180 (ix2 r c) + v188 (ix2 r c) + bandAt 21 v190 v1 r c + bandAt 22 v199 v1 r c + bandAt 23 v208 v1 r c + bandAt 24 v217 v1 r c := by
  unfold k0_pay13
  simp only [addf_apply]
  rw [band_apply 21 1045 9 rfl rfl _ sitofp_zero, band_apply 22 1046 8 rfl rfl _ sitofp_zero,
    band_apply 23 1047 7 rfl rfl _ sitofp_zero, band_apply 24 1048 6 rfl rfl _ sitofp_zero]

/-- Bands 25 … 28 onto the running sum. -/
theorem pay14_apply (v1 : FVec Ideal S128x1024 .f32) (v225 : FVec Ideal S128x1054 .f32)
    (v226 v235 v244 v253 : Vec Ideal S1x1x128x1024 .f32) (r : Fin 128) (c : Fin 1054) :
    k0_pay14 v1 v225 v226 v235 v244 v253 (ix2 r c)
      = v225 (ix2 r c) + bandAt 25 v226 v1 r c + bandAt 26 v235 v1 r c + bandAt 27 v244 v1 r c + bandAt 28 v253 v1 r c := by
  unfold k0_pay14
  simp only [addf_apply]
  rw [band_apply 25 1049 5 rfl rfl _ sitofp_zero, band_apply 26 1050 4 rfl rfl _ sitofp_zero,
    band_apply 27 1051 3 rfl rfl _ sitofp_zero, band_apply 28 1052 2 rfl rfl _ sitofp_zero]

/-- Band 29's masked slab. -/
theorem pay15_apply (v1 : FVec Ideal S128x1024 .f32) (v262 : Vec Ideal S1x1x128x1024 .f32) (r : Fin 128) (n : Fin 1024) :
    k0_pay15 v1 v262 (ix2 r n) = v262 (ix4 (0 : Fin 1) (0 : Fin 1) r n) * v1 (ix2 r n) := by
  unfold k0_pay15
  exact prod_apply v262 v1 _ r n

/-- Bands 29 and 30 onto the running sum, and the two unit axes put back; band 29's product arrives computed. -/
theorem pay1_apply (v1 : FVec Ideal S128x1024 .f32) (v261 : FVec Ideal S128x1054 .f32) (v264 : FVec Ideal S128x1024 .f32)
    (x29 : Vec Ideal S1x1x128x1024 .f32)
    (hv264 : ∀ (r : Fin 128) (n : Fin 1024), v264 (ix2 r n) = x29 (ix4 (0 : Fin 1) (0 : Fin 1) r n) * v1 (ix2 r n))
    (v271 : Vec Ideal S1x1x128x1024 .f32) (u v : Fin 1) (r : Fin 128) (c : Fin 1054) :
    k0_pay1 v1 v261 v264 v271 (ix4 u v r c)
      = v261 (ix2 r c) + bandAt 29 x29 v1 r c + bandAt 30 v271 v1 r c := by
  unfold k0_pay1
  rw [shapeCast_ab_11ab_apply]
  simp only [addf_apply]
  rw [bandY_apply 29 1053 1 rfl rfl _ sitofp_zero x29 v1 v264 hv264, band30_apply _ sitofp_zero]

end Cert.KernelIdeal.Pay

end
-- ==== Proof.Spec.lean ====
/-
  The specification of the sheared spectral sum, stated once over literal shapes.

  A cube `X[0, l, m, n]` (31 bands, rows `m`, 1024 columns) is masked by an aperture `C[0, 0, m, n]` and band `l` is
  moved `l` columns to the right before the bands are added: the entry at row `m` and output column `c` (of 1054) is

      ∑ l, if l ≤ c and c - l < 1024 then X[0, l, m, c - l] * C[0, 0, m, c - l] else 0.

  `shearRow` is that sum for an array (or a block of rows) of any number of rows; `G` is the whole result array.
-/
import Idealize.ShloMosaic.Lib.ValueIdx

noncomputable section

open scoped BigOperators
open Idealize.ShloMosaic Idealize.ShloMosaic.ValueIdx

namespace Cert.Shear

/-- Band `l`'s contribution at row `r`, output column `c`: the masked entry `c - l` columns in, when that column
    exists, and nothing otherwise. -/
def bandTerm {R : ℕ} (X : (⟨4, ![1, 31, R, 1024]⟩ : Shape).Idx → EReal) (C : (⟨4, ![1, 1, R, 1024]⟩ : Shape).Idx → EReal)
    (r : Fin R) (c : Fin 1054) (l : Fin 31) : EReal :=
  if h : l.val ≤ c.val ∧ c.val - l.val < 1024 then
    X (ix4 (0 : Fin 1) l r ⟨c.val - l.val, h.2⟩) * C (ix4 (0 : Fin 1) (0 : Fin 1) r ⟨c.val - l.val, h.2⟩)
  else 0

/-- Row `r`, output column `c` of the sheared sum: the 31 bands' contributions added. -/
def shearRow {R : ℕ} (X : (⟨4, ![1, 31, R, 1024]⟩ : Shape).Idx → EReal) (C : (⟨4, ![1, 1, R, 1024]⟩ : Shape).Idx → EReal)
    (r : Fin R) (c : Fin 1054) : EReal :=
  ∑ l : Fin 31, bandTerm X C r c l

/-- The result array: every row's sheared sum, with the two leading unit axes. -/
def G (X : (⟨4, ![1, 31, 1024, 1024]⟩ : Shape).Idx → EReal) (C : (⟨4, ![1, 1, 1024, 1024]⟩ : Shape).Idx → EReal) :
    (⟨4, ![1, 1, 1024, 1054]⟩ : Shape).Idx → EReal :=
  fun i => shearRow X C (i 2) (i 3)

theorem G_apply (X : (⟨4, ![1, 31, 1024, 1024]⟩ : Shape).Idx → EReal) (C : (⟨4, ![1, 1, 1024, 1024]⟩ : Shape).Idx → EReal)
    (u v : Fin 1) (r : Fin 1024) (c : Fin 1054) : G X C (ix4 u v r c) = shearRow X C r c := rfl

end Cert.Shear

end
-- ==== Proof.KernelBlock.lean ====
/-
  What the body leaves in the output block, entry by entry: the sheared row sum of the two input blocks.

  The payloads chain — each hands its running sum to the next — so the stored value at row `r`, column `c` is
  `0 + band 0 + band 1 + … + band 30`, the bands read off the slabs the body loads. Slab `l` is the cube block at
  band `l`, the aperture block is loaded whole; so band `l` is the specification's `bandTerm` of the two blocks, and
  the 31 terms added in order are its sum over `Fin 31`.
-/
import proofs.«127738_j41721312314035_1_alg».proof.Proof.Gen.KernelIdeal.Frame
import proofs.«127738_j41721312314035_1_alg».proof.Proof.KernelPay
import proofs.«127738_j41721312314035_1_alg».proof.Proof.Spec

noncomputable section

open scoped BigOperators
open Idealize.ShloMosaic Idealize.ShloMosaic.ValueIdx

namespace Cert.KernelIdeal.Block

open Cert.KernelIdeal Cert.KernelIdeal.Gen Cert.Shear Cert.KernelIdeal.Pay

theorem hz4 : (![0, 0, 0, 0] : Fin 4 → Nat) = fun _ => 0 := funext fun a => by fin_cases a <;> rfl

/-- Thirty-one terms added in order onto zero are their sum over `Fin 31`. -/
theorem sum_fin31 (f : Fin 31 → EReal) :
    ∑ l : Fin 31, f l
      = 0 + f ⟨0, by decide⟩ + f ⟨1, by decide⟩ + f ⟨2, by decide⟩ + f ⟨3, by decide⟩ + f ⟨4, by decide⟩ + f ⟨5, by decide⟩
        + f ⟨6, by decide⟩ + f ⟨7, by decide⟩ + f ⟨8, by decide⟩ + f ⟨9, by decide⟩ + f ⟨10, by decide⟩ + f ⟨11, by decide⟩
        + f ⟨12, by decide⟩ + f ⟨13, by decide⟩ + f ⟨14, by decide⟩ + f ⟨15, by decide⟩ + f ⟨16, by decide⟩ + f ⟨17, by decide⟩
        + f ⟨18, by decide⟩ + f ⟨19, by decide⟩ + f ⟨20, by decide⟩ + f ⟨21, by decide⟩ + f ⟨22, by decide⟩ + f ⟨23, by decide⟩
        + f ⟨24, by decide⟩ + f ⟨25, by decide⟩ + f ⟨26, by decide⟩ + f ⟨27, by decide⟩ + f ⟨28, by decide⟩ + f ⟨29, by decide⟩
        + f ⟨30, by decide⟩ := by
  have e : ∀ l : Fin 31, f l = (fun i : ℕ => if h : i < 31 then f ⟨i, h⟩ else 0) l.val := fun l => by
    show f l = if h : l.val < 31 then f ⟨l.val, h⟩ else 0
    rw [dif_pos l.isLt]
  rw [Finset.sum_congr rfl (fun l _ => e l), Fin.sum_univ_eq_sum_range (fun i : ℕ => if h : i < 31 then f ⟨i, h⟩ else 0) 31]
  simp [Finset.sum_range_succ]

/-- Slab `l` of the cube block, as the body loads it. -/
theorem ld_slab (l : ℕ) (hl : l < 31)
    (inb : ∀ a, (![0, l, 0, 0] : Fin 4 → ℕ) a + S1x1x128x1024.size a ≤ S1x31x128x1024.size a)
    (x0 : Vec Ideal S1x31x128x1024 .f32) (r : Fin 128) (n : Fin 1024) :
    View.ld x0 (Rect.unit (s := S1x31x128x1024) ![0, l, 0, 0] S1x1x128x1024.size inb) (ix4 (0 : Fin 1) (0 : Fin 1) r n)
      = x0 (ix4 (0 : Fin 1) (⟨l, hl⟩ : Fin 31) r n) := by
  show x0 _ = x0 _
  refine congrArg x0 ?_
  funext a
  apply Fin.ext
  match a with
  | ⟨0, _⟩ => rfl
  | ⟨1, _⟩ => show l + 1 * 0 = l; omega
  | ⟨2, _⟩ => show 0 + 1 * r.val = r.val; omega
  | ⟨3, _⟩ => show 0 + 1 * n.val = n.val; omega

/-- A band read off slab `l` and the aperture block is the specification's term for band `l`. -/
theorem bandAt_slab (l : ℕ) (hl : l < 31)
    (inb : ∀ a, (![0, l, 0, 0] : Fin 4 → ℕ) a + S1x1x128x1024.size a ≤ S1x31x128x1024.size a)
    (x0 : Vec Ideal S1x31x128x1024 .f32) (x1 : Vec Ideal S1x1x128x1024 .f32) (ca : FVec Ideal S128x1024 .f32)
    (hca : ∀ (r : Fin 128) (n : Fin 1024), ca (ix2 r n) = x1 (ix4 (0 : Fin 1) (0 : Fin 1) r n)) (r : Fin 128) (c : Fin 1054) :
    bandAt l (View.ld x0 (Rect.unit (s := S1x31x128x1024) ![0, l, 0, 0] S1x1x128x1024.size inb)) ca r c
      = bandTerm x0 x1 r c ⟨l, hl⟩ := by
  unfold bandAt bandTerm
  by_cases h : l ≤ c.val ∧ c.val - l < 1024
  · rw [dif_pos h, dif_pos h, ld_slab l hl inb, hca]
  · rw [dif_neg h, dif_neg h]

/-- THE BLOCK: what the body stores at row `r`, column `c` is the sheared row sum of the two input blocks. -/
theorem out_apply (x0 : Vec Ideal S1x31x128x1024 .f32) (x1 : Vec Ideal S1x1x128x1024 .f32)
    (u v : Fin 1) (r : Fin 128) (c : Fin 1054) :
    out0_2 x0 x1 (ix4 u v r c) = shearRow x0 x1 r c := by
  have hca : ∀ (r : Fin 128) (n : Fin 1024), k0_pay2 (View.ld x1 r0_0) (ix2 r n) = x1 (ix4 (0 : Fin 1) (0 : Fin 1) r n) :=
    fun r n => by rw [pay2_apply, View.ld_unit_zero (S := S1x1x128x1024) hz4]
  unfold out0_2
  rw [View.canon_unit_zero hz4]
  rw [pay1_apply _ _ _ (View.ld x0 r0_30) (pay15_apply _ _), pay14_apply, pay13_apply, pay12_apply,
    pay11_apply _ _ _ (View.ld x0 r0_17) (pay9_apply _ _) _ pay10_zero, pay8_apply, pay7_apply,
    pay6_apply _ _ _ pay4_zero _ (View.ld x0 r0_4) (pay5_apply _ _), pay3_apply]
  unfold shearRow
  rw [sum_fin31]
  rw [bandAt_slab 0 (by decide) _ x0 x1 _ hca, bandAt_slab 1 (by decide) _ x0 x1 _ hca, bandAt_slab 2 (by decide) _ x0 x1 _ hca,
    bandAt_slab 3 (by decide) _ x0 x1 _ hca, bandAt_slab 4 (by decide) _ x0 x1 _ hca, bandAt_slab 5 (by decide) _ x0 x1 _ hca,
    bandAt_slab 6 (by decide) _ x0 x1 _ hca, bandAt_slab 7 (by decide) _ x0 x1 _ hca, bandAt_slab 8 (by decide) _ x0 x1 _ hca,
    bandAt_slab 9 (by decide) _ x0 x1 _ hca, bandAt_slab 10 (by decide) _ x0 x1 _ hca, bandAt_slab 11 (by decide) _ x0 x1 _ hca,
    bandAt_slab 12 (by decide) _ x0 x1 _ hca, bandAt_slab 13 (by decide) _ x0 x1 _ hca, bandAt_slab 14 (by decide) _ x0 x1 _ hca,
    bandAt_slab 15 (by decide) _ x0 x1 _ hca, bandAt_slab 16 (by decide) _ x0 x1 _ hca, bandAt_slab 17 (by decide) _ x0 x1 _ hca,
    bandAt_slab 18 (by decide) _ x0 x1 _ hca, bandAt_slab 19 (by decide) _ x0 x1 _ hca, bandAt_slab 20 (by decide) _ x0 x1 _ hca,
    bandAt_slab 21 (by decide) _ x0 x1 _ hca, bandAt_slab 22 (by decide) _ x0 x1 _ hca, bandAt_slab 23 (by decide) _ x0 x1 _ hca,
    bandAt_slab 24 (by decide) _ x0 x1 _ hca, bandAt_slab 25 (by decide) _ x0 x1 _ hca, bandAt_slab 26 (by decide) _ x0 x1 _ hca,
    bandAt_slab 27 (by decide) _ x0 x1 _ hca, bandAt_slab 28 (by decide) _ x0 x1 _ hca, bandAt_slab 29 (by decide) _ x0 x1 _ hca,
    bandAt_slab 30 (by decide) _ x0 x1 _ hca]

end Cert.KernelIdeal.Block

end
-- ==== Proof.KernelValue.lean ====
/-
  From blocks to the array: after the run the result array is `G` of the two argument arrays.

  The grid has 8 points; point `t` stages rows `128 t … 128 t + 127` of the cube (all bands, all columns), of the
  aperture and of the result. What point `t` writes back is the sheared row sum of its two input blocks, and row `r`
  of those blocks is row `128 t + r` of the arrays, so it is block `t` of `G` of the arrays; the 8 blocks cover all
  1024 rows (row `m` is in block `m / 128`).
-/
import proofs.«127738_j41721312314035_1_alg».proof.Proof.Gen.KernelIdeal.Value
import proofs.«127738_j41721312314035_1_alg».proof.Proof.KernelBlock

noncomputable section

open scoped BigOperators
open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.Shear Cert.KernelIdeal.Block

variable (m : (ℓ : Loc nD τ sig) → Buf (Elt Ideal) ℓ) (ρ : Dev nD → PrngReg)

/-- The three index maps over the grid: every window is at row block `t` and at block 0 on the other axes. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 4) = 0 ∧ win0_1.index t (1 : Fin 4) = 0 ∧ win0_1.index t (2 : Fin 4) = t.val ∧ win0_1.index t (3 : Fin 4) = 0
    ∧ win0_2.index t (0 : Fin 4) = 0 ∧ win0_2.index t (1 : Fin 4) = 0 ∧ win0_2.index t (2 : Fin 4) = t.val ∧ win0_2.index t (3 : Fin 4) = 0 :=
  (by decide +kernel : ∀ t : Fin grid0.N, _)

/-- Row `r` of the cube's block at point `t` is row `128 t + r` of the cube. -/
theorem iblk0_apply (c : Dev nD) (t : Fin cfg0.N) (ht : t.val < 8) (l : Fin 31) (r : Fin 128) (n : Fin 1024) :
    (iblk m c 0 t : Vec Ideal S1x31x128x1024 .f32) (ix4 (0 : Fin 1) l r n)
      = (V m c main_arg0 : S1x31x1024x1024.Idx → Elt Ideal .f32) (ix4 (0 : Fin 1) l (⟨t.val * 128 + r.val, by have := r.isLt; omega⟩ : Fin 1024) n) := by
  obtain ⟨e0, e1, e2, e3, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 4) * 1 + 1 * 0 = 0; rw [e0]
  | ⟨1, _⟩ => show win0_0.index t (1 : Fin 4) * 31 + 1 * l.val = l.val; rw [e1]; omega
  | ⟨2, _⟩ => show win0_0.index t (2 : Fin 4) * 128 + 1 * r.val = t.val * 128 + r.val; rw [e2]; omega
  | ⟨3, _⟩ => show win0_0.index t (3 : Fin 4) * 1024 + 1 * n.val = n.val; rw [e3]; omega

/-- Row `r` of the aperture's block at point `t` is row `128 t + r` of the aperture. -/
theorem iblk1_apply (c : Dev nD) (t : Fin cfg0.N) (ht : t.val < 8) (r : Fin 128) (n : Fin 1024) :
    (iblk m c 1 t : Vec Ideal S1x1x128x1024 .f32) (ix4 (0 : Fin 1) (0 : Fin 1) r n)
      = (V m c main_arg1 : S1x1x1024x1024.Idx → Elt Ideal .f32) (ix4 (0 : Fin 1) (0 : Fin 1) (⟨t.val * 128 + r.val, by have := r.isLt; omega⟩ : Fin 1024) n) := by
  obtain ⟨-, -, -, -, e0, e1, e2, e3, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 4) * 1 + 1 * 0 = 0; rw [e0]
  | ⟨1, _⟩ => show win0_1.index t (1 : Fin 4) * 1 + 1 * 0 = 0; rw [e1]
  | ⟨2, _⟩ => show win0_1.index t (2 : Fin 4) * 128 + 1 * r.val = t.val * 128 + r.val; rw [e2]; omega
  | ⟨3, _⟩ => show win0_1.index t (3 : Fin 4) * 1024 + 1 * n.val = n.val; rw [e3]; omega

/-- A block of rows `128 k …` of the arrays has, as its sheared row sum, those rows of the arrays' sheared sum. -/
theorem block_eq (x0 : Vec Ideal S1x31x128x1024 .f32) (x1 : Vec Ideal S1x1x128x1024 .f32)
    (A0 : S1x31x1024x1024.Idx → EReal) (A1 : S1x1x1024x1024.Idx → EReal) (k : ℕ) (hk : k < 8)
    (h0 : ∀ (l : Fin 31) (r : Fin 128) (n : Fin 1024),
      x0 (ix4 (0 : Fin 1) l r n) = A0 (ix4 (0 : Fin 1) l (⟨k * 128 + r.val, by have := r.isLt; omega⟩ : Fin 1024) n))
    (h1 : ∀ (r : Fin 128) (n : Fin 1024),
      x1 (ix4 (0 : Fin 1) (0 : Fin 1) r n) = A1 (ix4 (0 : Fin 1) (0 : Fin 1) (⟨k * 128 + r.val, by have := r.isLt; omega⟩ : Fin 1024) n))
    (y : S1x1x128x1054.Idx) (i : S1x1x1024x1054.Idx) (hi2 : (i 2).val = k * 128 + (y 2).val) (hi3 : (i 3).val = (y 3).val) :
    out0_2 x0 x1 y = G A0 A1 i := by
  obtain ⟨u, v, r, cc, rfl⟩ : ∃ (u v : Fin 1) (r : Fin 128) (cc : Fin 1054), y = ix4 u v r cc :=
    ⟨y 0, y 1, y 2, y 3, eq_ix4 y⟩
  rw [out_apply]
  have e2 : i 2 = (⟨k * 128 + r.val, by have := r.isLt; omega⟩ : Fin 1024) := Fin.ext hi2
  have e3 : i 3 = cc := Fin.ext hi3
  show shearRow x0 x1 r cc = shearRow A0 A1 (i 2) (i 3)
  rw [e2, e3]
  unfold shearRow
  refine Finset.sum_congr rfl fun l _ => ?_
  unfold bandTerm
  by_cases h : l.val ≤ cc.val ∧ cc.val - l.val < 1024
  · rw [dif_pos h, dif_pos h, h0, h1]
  · rw [dif_neg h, dif_neg h]

/-- WHAT POINT `t` WRITES BACK is block `t` of `G` of the argument arrays. -/
theorem flushed_eq (c : Dev nD) (t : Fin cfg0.N) :
    (dats m 0 c).flushed 2 t
      = ((cfg0.win 2).blk t).view.read (Elt Ideal) (G (V m c main_arg0) (V m c main_arg1)) := by
  rw [Value.flushed2]
  obtain ⟨-, -, -, -, -, -, -, -, e0, e1, e2, e3⟩ := idx_facts t
  have hN : cfg0.N = 8 := N_0
  have ht : t.val < 8 := by have := t.isLt; omega
  funext y
  show out0_2 (iblk m c 0 t) (iblk m c 1 t) y = G (V m c main_arg0) (V m c main_arg1) (((cfg0.win 2).blk t).view.emb y)
  refine block_eq (iblk m c 0 t) (iblk m c 1 t) (V m c main_arg0) (V m c main_arg1) t.val ht
    (iblk0_apply m c t ht) (iblk1_apply m c t ht) y _ ?_ ?_
  · show win0_2.index t (2 : Fin 4) * 128 + 1 * (y 2).val = t.val * 128 + (y 2).val
    rw [e2]; omega
  · show win0_2.index t (3 : Fin 4) * 1054 + 1 * (y 3).val = (y 3).val
    rw [e3]; omega

/-- An index of the array is in point `t`'s block iff each coordinate is in the block's range on its axis. -/
theorem mem_blk (t : Fin cfg0.N) (i : S1x1x1024x1054.Idx) :
    i ∈ ((cfg0.win 2).blk t).view.set ↔ ∀ a : Fin 4, win0_2.index t a * S1x1x128x1054.size a ≤ (i a).val
      ∧ (i a).val < win0_2.index t a * S1x1x128x1054.size a + S1x1x128x1054.size a := by
  show i ∈ ((View.whole main_v0).slice (win0_2.rect t)).set ↔ _
  rw [View.set_slice_whole, Rect.mem_set_unit]
  exact Iff.rfl

/-- Every index of the result array is in some point's block: row `m` in block `m / 128`. -/
theorem cover (i : S1x1x1024x1054.Idx) :
    ∃ t : Fin cfg0.N, (cfg0.win 2).flush t = true ∧ i ∈ ((cfg0.win 2).blk t).view.set := by
  have hN : cfg0.N = 8 := N_0
  have h0 : (i 0).val < 1 := (i 0).isLt
  have h1 : (i 1).val < 1 := (i 1).isLt
  have h2 : (i 2).val < 1024 := (i 2).isLt
  have h3 : (i 3).val < 1054 := (i 3).isLt
  obtain ⟨t, ht⟩ : ∃ t : Fin cfg0.N, t.val = (i 2).val / 128 := ⟨⟨(i 2).val / 128, by rw [hN]; omega⟩, rfl⟩
  obtain ⟨-, -, -, -, -, -, -, -, e0, e1, e2, e3⟩ := idx_facts t
  refine ⟨t, flush0_2 t, ?_⟩
  rw [mem_blk]
  intro a
  match a with
  | ⟨0, _⟩ =>
    show win0_2.index t (0 : Fin 4) * 1 ≤ (i 0).val ∧ (i 0).val < win0_2.index t (0 : Fin 4) * 1 + 1
    rw [e0]; omega
  | ⟨1, _⟩ =>
    show win0_2.index t (1 : Fin 4) * 1 ≤ (i 1).val ∧ (i 1).val < win0_2.index t (1 : Fin 4) * 1 + 1
    rw [e1]; omega
  | ⟨2, _⟩ =>
    show win0_2.index t (2 : Fin 4) * 128 ≤ (i 2).val ∧ (i 2).val < win0_2.index t (2 : Fin 4) * 128 + 128
    rw [e2, ht]; omega
  | ⟨3, _⟩ =>
    show win0_2.index t (3 : Fin 4) * 1054 ≤ (i 3).val ∧ (i 3).val < win0_2.index t (3 : Fin 4) * 1054 + 1054
    rw [e3]; omega

/-- THE ARRAY after the run is `G` of the argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) (cover)

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.RefValue.lean ====
/-
  The reference side of the sheared spectral sum: the printed reference program's result array is the specification's
  array `Cert.Shear.G`.

  The reference multiplies the cube by the aperture, `y[0, l, m, n] = X[0, l, m, n] * C[0, 0, m, n]`, and adds every
  entry of `y` into a zero array of 1054 columns at row `m`, column `col[l, n]`, where the column array is
  `col[l, n] = l + n` (two iotas added, followed by the wrap of a negative index, which never fires since
  `0 ≤ l + n`). This is one accumulating scatter. At the exact (extended real) values the scatter's result at
  `(0, m, c)` is the operand there, `0`, plus the sum of the updates whose result index is `(0, m, c)`. The four
  steps below:

  1. the index array read at `(l, n, 0)` is the integer `l + n` (`idx_read`);
  2. for these dimension numbers the update index `(j0, j1, l, n)` lands at `(j0, j1, idx[l, n, 0])`, whatever the
     index array `idx` is, so it lands at `(0, m, c)` exactly when `j1 = m` and `idx[l, n, 0] = c`
     (`resultIdx_iff`);
  3. hence the updates landing at `(0, m, c)` are, band by band, the single one at column `n = c - l` when
     `l ≤ c` and `c - l < 1024`, and none otherwise: the filtered sum is the sum over the 31 bands of that one term or
     of `0` (`scatter_sum`; it uses only that the values form an additive commutative monoid);
  4. reading the transposed product at that update index gives the specification's band term (`ref_eq`).
-/
import proofs.«127738_j41721312314035_1_alg».proof.Proof.Gen.ReferenceIdeal.Read
import proofs.«127738_j41721312314035_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx
open Cert.ReferenceIdeal Cert.ReferenceIdeal.Gen Idealize.ShloMosaic Idealize.ShloMosaic.TcCoe Idealize.SL.Sem Idealize.ShloMosaic.StableHlo
open Cert.ReferenceIdeal.Read

namespace Cert.ReferenceIdeal.RefValue

/-! ## 1. The index array is `l + n` -/

/-- The 32-bit word `select (a + b <ₛ 0) (a + b + 1054) (a + b)` of two small naturals, read as a signed integer, is
    `a + b`: the sum stays below `2 ^ 31`, so it is not negative as a signed word and the select keeps it. -/
theorem wrap_toInt (a b : Nat) (ha : a < 31) (hb : b < 1024) :
    BitVec.toInt (Scalar.select (IntOp.cmpi .slt (IntOp.addi (BitVec.ofNat 32 a) (BitVec.ofNat 32 b)) 0#32)
      (IntOp.addi (IntOp.addi (BitVec.ofNat 32 a) (BitVec.ofNat 32 b)) 1054#32)
      (IntOp.addi (BitVec.ofNat 32 a) (BitVec.ofNat 32 b))) = (a + b : ℤ) := by
  have hs : IntOp.addi (BitVec.ofNat 32 a) (BitVec.ofNat 32 b) = BitVec.ofNat 32 (a + b) := by
    unfold IntOp.addi; exact (BitVec.ofNat_add _ _).symm
  rw [hs]
  have hI : (BitVec.ofNat 32 (a + b)).toInt = (a + b : ℤ) := by
    have hN : (BitVec.ofNat 32 (a + b)).toNat = a + b := by
      rw [BitVec.toNat_ofNat]; exact Nat.mod_eq_of_lt (by omega)
    rw [BitVec.toInt_eq_toNat_of_lt (by rw [hN]; omega), hN]; push_cast; rfl
  have hc : IntOp.cmpi .slt (BitVec.ofNat 32 (a + b)) 0#32 = 0#1 := by
    show BitVec.ofBool ((BitVec.ofNat 32 (a + b)).slt 0#32) = 0#1
    rw [BitVec.slt_eq_decide, hI, BitVec.toInt_zero, decide_eq_false (by omega)]
    rfl
  rw [hc, select_zero, hI]

/-- The scatter's index array at `(l, n, 0)`, read signed, is `l + n`. -/
theorem idx_read (l : Fin 31) (n : Fin 1024) :
    (val_main_v16 (F := Ideal) (ix3 l n (0 : Fin 1))).toInt = (l.val + n.val : ℤ) := by
  rw [val_main_v16_apply, val_main_v15_apply, val_main_v12_apply, val_main_v14_apply, val_main_v8_apply,
    val_main_v6_apply, val_main_v7_apply, val_main_v3_apply, val_main_v5_apply, val_main_v2_apply, val_main_v4_apply,
    val_main_v11_apply, val_main_v13_apply, val_main_c_apply, val_main_c_0_apply]
  exact wrap_toInt l.val n.val l.isLt n.isLt

/-! ## 2. Where an update lands -/

/-- The scatter's dimension numbers: operand `[1, 1024, 1054]`, indices `[31, 1024, 1]`, updates
    `[1, 1024, 31, 1024]`; the updates' axes 0 and 1 are window axes (going to the operand's axes 0 and 1), the
    operand's axis 2 is the scattered one, and the index vector lies along the indices' axis 2. -/
abbrev dS : ScatterDims S1x1024x1054 S31x1024x1 S1x1024x31x1024 :=
  scatter_S1x1024x1054_S31x1024x1_S1x1024x31x1024_01_2_2_2

/-- The update index `(j0, j1, l, n)` reads its start index at `(l, n, 0)` of the index array. -/
theorem siIdx_eq (j0 : Fin 1) (j1 : Fin 1024) (l : Fin 31) (n : Fin 1024) (c : Fin dS.scatterDimsToOperandDims.length) :
    dS.siIdx (ix4 j0 j1 l n) c = ix3 l n (0 : Fin 1) := by
  funext b
  match b with
  | ⟨0, _⟩ => rfl
  | ⟨1, _⟩ => rfl
  | ⟨2, _⟩ =>
    have hc : c.val < 1 := c.isLt
    exact Fin.ext (by show c.val = 0; omega)

/-- No start index component goes to the operand's axis 0 … -/
theorem start_0 (idx : IVec S31x1024x1 32) (j : S1x1024x31x1024.Idx) : dS.start j idx ⟨0, by decide⟩ = 0 := by
  unfold ScatterDims.start
  rw [dif_neg (by decide)]

/-- … nor to its axis 1 … -/
theorem start_1 (idx : IVec S31x1024x1 32) (j : S1x1024x31x1024.Idx) : dS.start j idx ⟨1, by decide⟩ = 0 := by
  unfold ScatterDims.start
  rw [dif_neg (by decide)]

/-- … and on axis 2 the start is the index array's word at `(l, n, 0)`, read signed. -/
theorem start_2 (idx : IVec S31x1024x1 32) (j0 : Fin 1) (j1 : Fin 1024) (l : Fin 31) (n : Fin 1024) :
    dS.start (ix4 j0 j1 l n) idx ⟨2, by decide⟩ = (idx (ix3 l n (0 : Fin 1))).toInt := by
  unfold ScatterDims.start
  rw [dif_pos (by decide), siIdx_eq]

/-- The window coordinate on the operand's axis 0 is the update's coordinate 0 … -/
theorem window_0 (j0 : Fin 1) (j1 : Fin 1024) (l : Fin 31) (n : Fin 1024) :
    dS.window (ix4 j0 j1 l n) ⟨0, by decide⟩ = j0.val := by
  unfold ScatterDims.window
  rw [dif_pos (by decide)]
  rfl

/-- … on axis 1 the update's coordinate 1 … -/
theorem window_1 (j0 : Fin 1) (j1 : Fin 1024) (l : Fin 31) (n : Fin 1024) :
    dS.window (ix4 j0 j1 l n) ⟨1, by decide⟩ = j1.val := by
  unfold ScatterDims.window
  rw [dif_pos (by decide)]
  rfl

/-- … and `0` on the inserted axis 2. -/
theorem window_2 (j : S1x1024x31x1024.Idx) : dS.window j ⟨2, by decide⟩ = 0 := by
  unfold ScatterDims.window
  rw [dif_neg (by decide)]

/-- For ANY index array: the update index `(j0, j1, l, n)` lands at `(i0, m, c)` exactly when `j1 = m` and the index
    array's word at `(l, n, 0)`, read signed, is `c`. (Start plus window coordinate is `(j0, j1, idx[l, n, 0])`; the
    leading axis has one point, so it imposes nothing.) -/
theorem resultIdx_iff (idx : IVec S31x1024x1 32) (j0 : Fin 1) (j1 : Fin 1024) (l : Fin 31) (n : Fin 1024)
    (i0 : Fin 1) (m : Fin 1024) (c : Fin 1054) :
    dS.resultIdx? (ix4 j0 j1 l n) idx = some (ix3 i0 m c) ↔
      j1 = m ∧ (idx (ix3 l n (0 : Fin 1))).toInt = (c.val : ℤ) := by
  have hj0 : j0.val = 0 := by have := j0.isLt; omega
  have hi0 : i0.val = 0 := by have := i0.isLt; omega
  unfold ScatterDims.resultIdx?
  constructor
  · intro h
    split at h
    · rename_i hb
      have he := Option.some.inj h
      have h1 : (dS.start (ix4 j0 j1 l n) idx ⟨1, by decide⟩ + (dS.window (ix4 j0 j1 l n) ⟨1, by decide⟩ : ℤ)).toNat = m.val :=
        congrArg (fun f : S1x1024x1054.Idx => (f ⟨1, by decide⟩).val) he
      have h2 : (dS.start (ix4 j0 j1 l n) idx ⟨2, by decide⟩ + (dS.window (ix4 j0 j1 l n) ⟨2, by decide⟩ : ℤ)).toNat = c.val :=
        congrArg (fun f : S1x1024x1054.Idx => (f ⟨2, by decide⟩).val) he
      have hb2 := (hb ⟨2, by decide⟩).1
      rw [start_1, window_1] at h1
      rw [start_2, window_2] at h2 hb2
      exact ⟨Fin.ext (by omega), by omega⟩
    · cases h
  · rintro ⟨rfl, hT⟩
    have hb : ∀ a, 0 ≤ dS.start (ix4 j0 j1 l n) idx a + (dS.window (ix4 j0 j1 l n) a : ℤ) ∧
        dS.start (ix4 j0 j1 l n) idx a + (dS.window (ix4 j0 j1 l n) a : ℤ) < (S1x1024x1054.size a : ℤ) := by
      intro a
      match a with
      | ⟨0, _⟩ =>
        show 0 ≤ dS.start (ix4 j0 j1 l n) idx ⟨0, by decide⟩ + (dS.window (ix4 j0 j1 l n) ⟨0, by decide⟩ : ℤ) ∧
          dS.start (ix4 j0 j1 l n) idx ⟨0, by decide⟩ + (dS.window (ix4 j0 j1 l n) ⟨0, by decide⟩ : ℤ) < ((1 : ℕ) : ℤ)
        rw [start_0, window_0]; omega
      | ⟨1, _⟩ =>
        show 0 ≤ dS.start (ix4 j0 j1 l n) idx ⟨1, by decide⟩ + (dS.window (ix4 j0 j1 l n) ⟨1, by decide⟩ : ℤ) ∧
          dS.start (ix4 j0 j1 l n) idx ⟨1, by decide⟩ + (dS.window (ix4 j0 j1 l n) ⟨1, by decide⟩ : ℤ) < ((1024 : ℕ) : ℤ)
        rw [start_1, window_1]; have := j1.isLt; omega
      | ⟨2, _⟩ =>
        show 0 ≤ dS.start (ix4 j0 j1 l n) idx ⟨2, by decide⟩ + (dS.window (ix4 j0 j1 l n) ⟨2, by decide⟩ : ℤ) ∧
          dS.start (ix4 j0 j1 l n) idx ⟨2, by decide⟩ + (dS.window (ix4 j0 j1 l n) ⟨2, by decide⟩ : ℤ) < ((1054 : ℕ) : ℤ)
        rw [start_2, window_2, hT]; have := c.isLt; omega
    rw [dif_pos hb]
    congr 1
    funext a
    match a with
    | ⟨0, _⟩ =>
      exact Fin.ext (by
        show (dS.start (ix4 j0 j1 l n) idx ⟨0, by decide⟩ + (dS.window (ix4 j0 j1 l n) ⟨0, by decide⟩ : ℤ)).toNat = i0.val
        rw [start_0, window_0]; omega)
    | ⟨1, _⟩ =>
      exact Fin.ext (by
        show (dS.start (ix4 j0 j1 l n) idx ⟨1, by decide⟩ + (dS.window (ix4 j0 j1 l n) ⟨1, by decide⟩ : ℤ)).toNat = j1.val
        rw [start_1, window_1]; omega)
    | ⟨2, _⟩ =>
      exact Fin.ext (by
        show (dS.start (ix4 j0 j1 l n) idx ⟨2, by decide⟩ + (dS.window (ix4 j0 j1 l n) ⟨2, by decide⟩ : ℤ)).toNat = c.val
        rw [start_2, window_2, hT]; omega)

/-! ## 3. The updates landing at one element, band by band -/

/-- The band coordinate of an update index. -/
abbrev bandOf (j : S1x1024x31x1024.Idx) : Fin 31 := ⟨(j 2).val, (j 2).isLt⟩

/-- When the index array at `(l, n, 0)` is `l + n`, the sum of the updates landing at `(i0, m, c)` is the sum over the
    bands `l` of the update at `(0, m, l, c - l)` when that column exists (`l ≤ c`, `c - l < 1024`) and of `0` when it
    does not. The landing set is fibred over the band: the fibre over `l` is that one update index, or empty. Only the
    additive commutative monoid structure of the values is used. -/
theorem scatter_sum {M : Type} [AddCommMonoid M] (idx : IVec S31x1024x1 32)
    (hidx : ∀ (l : Fin 31) (n : Fin 1024), (idx (ix3 l n (0 : Fin 1))).toInt = (l.val + n.val : ℤ))
    (f : S1x1024x31x1024.Idx → M) (i0 : Fin 1) (m : Fin 1024) (c : Fin 1054)
    [DecidablePred fun j : S1x1024x31x1024.Idx => dS.resultIdx? j idx = some (ix3 i0 m c)] :
    ∑ j ∈ Finset.univ.filter (fun j : S1x1024x31x1024.Idx => dS.resultIdx? j idx = some (ix3 i0 m c)), f j =
      ∑ l : Fin 31, if h : l.val ≤ c.val ∧ c.val - l.val < 1024 then
        f (ix4 (0 : Fin 1) m l ⟨c.val - l.val, h.2⟩) else 0 := by
  rw [← Finset.sum_fiberwise_of_maps_to (t := Finset.univ) (g := bandOf) (fun _ _ => Finset.mem_univ _)]
  refine Finset.sum_congr rfl fun l _ => ?_
  split
  · -- the column c - l exists: the fibre is the single update index (0, m, l, c - l)
    rename_i h
    rw [Finset.sum_eq_single_of_mem (ix4 (0 : Fin 1) m l ⟨c.val - l.val, h.2⟩)]
    · rw [Finset.mem_filter, Finset.mem_filter]
      refine ⟨⟨Finset.mem_univ _, ?_⟩, rfl⟩
      rw [resultIdx_iff, hidx]
      refine ⟨rfl, ?_⟩
      show ((l.val : ℤ) + ((c.val - l.val : ℕ) : ℤ)) = c.val
      omega
    · intro b hb hne
      exfalso; apply hne
      obtain ⟨j0, j1, l', n, rfl⟩ : ∃ (j0 : Fin 1) (j1 : Fin 1024) (l' : Fin 31) (n : Fin 1024), b = ix4 j0 j1 l' n :=
        ⟨_, _, _, _, eq_ix4 b⟩
      rw [Finset.mem_filter, Finset.mem_filter, resultIdx_iff, hidx] at hb
      obtain ⟨⟨_, rfl, hs⟩, hl⟩ := hb
      have hl' : l' = l := hl
      subst hl'
      have hj0 : j0 = 0 := Subsingleton.elim _ _
      subst hj0
      have hn : n = ⟨c.val - l'.val, h.2⟩ := Fin.ext (by show n.val = c.val - l'.val; omega)
      rw [hn]
  · -- no such column: the fibre is empty
    rename_i h
    apply Finset.sum_eq_zero
    intro b hb
    exfalso; apply h
    obtain ⟨j0, j1, l', n, rfl⟩ : ∃ (j0 : Fin 1) (j1 : Fin 1024) (l' : Fin 31) (n : Fin 1024), b = ix4 j0 j1 l' n :=
      ⟨_, _, _, _, eq_ix4 b⟩
    rw [Finset.mem_filter, Finset.mem_filter, resultIdx_iff, hidx] at hb
    obtain ⟨⟨_, _, hs⟩, hl⟩ := hb
    have hl' : l' = l := hl
    subst hl'
    have := n.isLt
    constructor <;> omega

/-! ## 4. The reference's result is the specification's array -/

/-- The last broadcast (a unit axis inserted at position 1) reads the scatter's result at `(0, m, c)`. -/
theorem idx18 (u v : Fin 1) (m : Fin 1024) (c : Fin 1054) :
    idx_main_v18 (ix4 u v m c) = ix3 (0 : Fin 1) m c := by
  funext a
  match a with
  | ⟨0, _⟩ => rfl
  | ⟨1, _⟩ => rfl
  | ⟨2, _⟩ => rfl

/-- The reference program's result, at the exact values, is the sheared spectral sum `Cert.Shear.G`: at `(u, v, m, c)`
    it is `0` plus the sum of the updates landing at `(0, m, c)`, which by `scatter_sum` is the sum over the bands of
    `X[0, l, m, c - l] * C[0, 0, m, c - l]` where that column exists — the update array being the masked cube with its
    band and row axes exchanged. -/
theorem ref_eq (X : (⟨S1x31x1024x1024, .f32⟩ : BufTy).Contents (Elt Ideal)) (C : (⟨S1x1x1024x1024, .f32⟩ : BufTy).Contents (Elt Ideal)) :
    Cert.ReferenceIdeal.Read.val_main_v18 (F := Ideal) X C = Cert.Shear.G X C := by
  funext i
  obtain ⟨u, v, m, c, rfl⟩ : ∃ (u v : Fin 1) (m : Fin 1024) (c : Fin 1054), i = ix4 u v m c :=
    ⟨_, _, _, _, eq_ix4 i⟩
  rw [val_main_v18_apply, idx18, Cert.Shear.G_apply]
  unfold val_main_v17
  show Ideal.hostScatterAdd dS (val_main_v9 (F := Ideal)) (val_main_v16 (F := Ideal)) (val_main_v10 (F := Ideal) X C)
    (ix3 (0 : Fin 1) m c) = _
  unfold Ideal.hostScatterAdd
  rw [scatter_sum (val_main_v16 (F := Ideal)) idx_read (val_main_v10 (F := Ideal) X C) 0 m c]
  rw [val_main_v9_apply, val_main_cst_apply]
  show Ideal.ofBits .f32 0x00000000#32 + _ = _
  rw [Ideal.ofBits_zero_f32, zero_add]
  unfold Cert.Shear.shearRow
  refine Finset.sum_congr rfl fun l _ => ?_
  unfold Cert.Shear.bandTerm
  split
  · rename_i h
    rw [val_main_v10_apply, val_main_v1_apply, val_main_v0_apply]
    show X (idx_main_v10 (ix4 (0 : Fin 1) m l ⟨c.val - l.val, h.2⟩)) *
        C (idx_main_v0 (idx_main_v10 (ix4 (0 : Fin 1) m l ⟨c.val - l.val, h.2⟩))) =
      X (ix4 (0 : Fin 1) l m ⟨c.val - l.val, h.2⟩) * C (ix4 (0 : Fin 1) (0 : Fin 1) m ⟨c.val - l.val, h.2⟩)
    have e1 : idx_main_v10 (ix4 (0 : Fin 1) m l (⟨c.val - l.val, h.2⟩ : Fin 1024)) =
        ix4 (0 : Fin 1) l m (⟨c.val - l.val, h.2⟩ : Fin 1024) := by
      funext a
      match a with
      | ⟨0, _⟩ => rfl
      | ⟨1, _⟩ => rfl
      | ⟨2, _⟩ => rfl
      | ⟨3, _⟩ => rfl
    have e2 : idx_main_v0 (ix4 (0 : Fin 1) l m (⟨c.val - l.val, h.2⟩ : Fin 1024)) =
        ix4 (0 : Fin 1) (0 : Fin 1) m (⟨c.val - l.val, h.2⟩ : Fin 1024) := by
      funext a
      match a with
      | ⟨0, _⟩ => rfl
      | ⟨1, _⟩ => rfl
      | ⟨2, _⟩ => rfl
      | ⟨3, _⟩ => rfl
    rw [e1, e2]
  · rfl

end Cert.ReferenceIdeal.RefValue

end
-- ==== Proof.lean ====
/-
  The certificate of the sheared spectral sum: a cube masked by an aperture, band `l` moved `l` columns to the
  right, the 31 bands added.

  The kernel does it 128 rows at a time: for each band it multiplies the band's slab by the aperture block, pads it
  with `l` zero columns in front and `30 - l` behind, and adds it onto a running sum that starts at zero. The
  reference multiplies the whole cube by the aperture and scatter-adds entry `(l, m, n)` into column `l + n` of a
  zero array. On the extended reals both are, at row `m` and column `c`,

      ∑ l, if l ≤ c and c - l < 1024 then x[0, l, m, c - l] * ca[0, 0, m, c - l] else 0

  (`Cert.Shear.G`): the kernel's padded bands are that sum's terms, added in order onto zero
  (`Cert.KernelIdeal.Whole.run`); the reference's scatter is the same terms collected by their target column
  (`Cert.ReferenceIdeal.RefValue.ref_eq`). Only that addition is commutative and associative with zero as its unit
  is used — true on the extended reals with no finiteness hypothesis — so the precondition is never opened.
  The three frames are the generated ones (the reference's is its generated run with the result dropped); the
  idealization rewrote nothing, so `preserves` is trivial.
-/
import proofs.«127738_j41721312314035_1_alg».proof.Defs
import proofs.«127738_j41721312314035_1_alg».proof.Proof.Gen.Kernel
import proofs.«127738_j41721312314035_1_alg».proof.Proof.Gen.Kernel.Skeleton
import proofs.«127738_j41721312314035_1_alg».proof.Proof.Gen.Kernel.Launch
import proofs.«127738_j41721312314035_1_alg».proof.Proof.Gen.Kernel.Points
import proofs.«127738_j41721312314035_1_alg».proof.Proof.Gen.Kernel.Frame
import proofs.«127738_j41721312314035_1_alg».proof.Proof.Gen.KernelIdeal
import proofs.«127738_j41721312314035_1_alg».proof.Proof.Gen.KernelIdeal.Skeleton
import proofs.«127738_j41721312314035_1_alg».proof.Proof.Gen.KernelIdeal.Launch
import proofs.«127738_j41721312314035_1_alg».proof.Proof.Gen.KernelIdeal.Points
import proofs.«127738_j41721312314035_1_alg».proof.Proof.Gen.KernelIdeal.Frame
import proofs.«127738_j41721312314035_1_alg».proof.Proof.Gen.ReferenceIdeal
import proofs.«127738_j41721312314035_1_alg».proof.Proof.Gen.Pre_finite_inputs
import proofs.«127738_j41721312314035_1_alg».proof.Proof.Gen.KernelIdeal.Value
import proofs.«127738_j41721312314035_1_alg».proof.Proof.Gen.ReferenceIdeal.Run
import proofs.«127738_j41721312314035_1_alg».proof.Proof.Gen.ReferenceIdeal.Read
import proofs.«127738_j41721312314035_1_alg».proof.Proof.KernelValue
import proofs.«127738_j41721312314035_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `G` of the (agreeing) arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
